-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512x128 : Shape := ⟨4, ![2, 512, 512, 128]⟩
abbrev S2x512 : Shape := ⟨2, ![2, 512]⟩
abbrev S128x63 : Shape := ⟨2, ![128, 63]⟩
abbrev S128 : Shape := ⟨1, ![128]⟩
abbrev S_ : Shape := ⟨0, ![]⟩

class Facts : Prop where
  bcast_S_S2x512x512x128 : S_.BroadcastsInDim S2x512x512x128 (![] : Fin 0 → Fin S2x512x512x128.rank)
  reducesTo_S2x512x512x128_S_d0_1_2_3 : S2x512x512x128.ReducesTo [0, 1, 2, 3] S_
  h_S_ : 0 < S_.numel
  bcast_S_S128x63 : S_.BroadcastsInDim S128x63 (![] : Fin 0 → Fin S128x63.rank)
  reducesTo_S128x63_S_d0_1 : S128x63.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S2x512x512x128 .f32) (main_arg1 : IVec S2x512 32) (main_arg2 : FVec F S128x63 .f32) (main_arg3 : FVec F S128 .f32) : IVec S_ 1 :=
  let main_v0 : FVec F S2x512x512x128 .f32 := Host.absf main_arg0
  let main_cst : FVec F S_ .f32 := constant S_ .f32 0x7F800000#32
  let main_v1 : FVec F S2x512x512x128 .f32 := broadcastInDim S2x512x512x128 ![] bcast_S_S2x512x512x128 main_cst
  let main_v2 : IVec S2x512x512x128 1 := cmpf .olt main_v0 main_v1
  let main_c : IVec S_ 1 := constantI S_ 1 1#1
  let main_v3 : IVec S_ 1 := (fun x v => Host.reduce IntOp.andi x v reducesTo_S2x512x512x128_S_d0_1_2_3 h_S_) main_v2 main_c
  let main_v4 : FVec F S128x63 .f32 := Host.absf main_arg2
  let main_cst_0 : FVec F S_ .f32 := constant S_ .f32 0x7F800000#32
  let main_v5 : FVec F S128x63 .f32 := broadcastInDim S128x63 ![] bcast_S_S128x63 main_cst_0
  let main_v6 : IVec S128x63 1 := cmpf .olt main_v4 main_v5
  let main_c_1 : IVec S_ 1 := constantI S_ 1 1#1
  let main_v7 : IVec S_ 1 := (fun x v => Host.reduce IntOp.andi x v reducesTo_S128x63_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S2x512x512x128 : Shape := ⟨4, ![2, 512, 512, 128]⟩
abbrev S2x512 : Shape := ⟨2, ![2, 512]⟩
abbrev S128x63 : Shape := ⟨2, ![128, 63]⟩
abbrev S128 : Shape := ⟨1, ![128]⟩
abbrev S63x128 : Shape := ⟨2, ![63, 128]⟩
abbrev S2x32x128x128 : Shape := ⟨4, ![2, 32, 128, 128]⟩
abbrev S1x128 : Shape := ⟨2, ![1, 128]⟩
abbrev S1x1x1x128 : Shape := ⟨4, ![1, 1, 1, 128]⟩
abbrev S32x128 : Shape := ⟨2, ![32, 128]⟩
abbrev S32x128x63 : Shape := ⟨3, ![32, 128, 63]⟩
abbrev S32x128x1 : Shape := ⟨3, ![32, 128, 1]⟩
abbrev S4096x63 : Shape := ⟨2, ![4096, 63]⟩
abbrev S4096x128 : Shape := ⟨2, ![4096, 128]⟩
abbrev S32x128x128 : Shape := ⟨3, ![32, 128, 128]⟩
abbrev S1x1x128 : Shape := ⟨3, ![1, 1, 128]⟩
abbrev S1x32x128x128 : Shape := ⟨4, ![1, 32, 128, 128]⟩

abbrev nBuf : Space → Nat
  | .hbm => 7
  | .vmem => 6
  | .smem => 0
  | _ => 0

abbrev bufTy : (tb : Table) → Fin (tcTables nBuf tb) → BufTy
  | .hbm, ⟨0, _⟩ => ⟨S2x512x512x128, .f32⟩
  | .hbm, ⟨1, _⟩ => ⟨S2x512, .i32⟩
  | .hbm, ⟨2, _⟩ => ⟨S128x63, .f32⟩
  | .hbm, ⟨3, _⟩ => ⟨S128, .f32⟩
  | .hbm, ⟨4, _⟩ => ⟨S63x128, .f32⟩
  | .hbm, ⟨5, _⟩ => ⟨S63x128, .bf16⟩
  | .hbm, ⟨6, _⟩ => ⟨S2x512x512x128, .f32⟩
  | .local _ .vmem, ⟨0, _⟩ => ⟨S2x32x128x128, .f32⟩
  | .local _ .vmem, ⟨1, _⟩ => ⟨S2x32x128x128, .f32⟩
  | .local _ .vmem, ⟨2, _⟩ => ⟨S63x128, .bf16⟩
  | .local _ .vmem, ⟨3, _⟩ => ⟨S128, .f32⟩
  | .local _ .vmem, ⟨4, _⟩ => ⟨S2x32x128x128, .f32⟩
  | .local _ .vmem, ⟨5, _⟩ => ⟨S2x32x128x128, .f32⟩
  | _, _ => ⟨S2x512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let arg1 : BitVec 32 := BitVec.ofNat 32 (i 1).val
  let c128_i32 : BitVec 32 := 128#32
  let v2 : BitVec 32 := Scalar.muli arg1 c128_i32
  let v3 : BitVec 32 := Scalar.subi v1 v2
  let c_m31_i32 : BitVec 32 := 4294967265#32
  let v4 : BitVec 1 := Scalar.cmpi .sle v3 c_m31_i32
  let v12 : BitVec 32 := Scalar.extui v4
  let c0_i32 : BitVec 32 := 0#32
  let v13 : BitVec 1 := Scalar.cmpi .ne v12 c0_i32
  v13

def k0_cond2 (i : grid0.Coords) : BitVec 1 :=
  let arg0 : BitVec 32 := BitVec.ofNat 32 (i 0).val
  let c32_i32_0 : BitVec 32 := 32#32
  let v5 : BitVec 32 := Scalar.muli arg0 c32_i32_0
  let arg1 : BitVec 32 := BitVec.ofNat 32 (i 1).val
  let c128_i32_1 : BitVec 32 := 128#32
  let v6 : BitVec 32 := Scalar.muli arg1 c128_i32_1
  let c127_i32 : BitVec 32 := 127#32
  let v7 : BitVec 32 := Scalar.addi v6 c127_i32
  let v8 : BitVec 32 := Scalar.subi v5 v7
  let c31_i32_2 : BitVec 32 := 31#32
  let v9 : BitVec 1 := Scalar.cmpi .sge v8 c31_i32_2
  let v14 : BitVec 32 := Scalar.extui v9
  let c0_i32_3 : BitVec 32 := 0#32
  let v15 : BitVec 1 := Scalar.cmpi .ne v14 c0_i32_3
  v15

def k0_cond3 (i : grid0.Coords) : BitVec 1 :=
  let arg0 : BitVec 32 := BitVec.ofNat 32 (i 0).val
  let c32_i32 : BitVec 32 := 32#32
  let v0 : BitVec 32 := Scalar.muli arg0 c32_i32
  let c31_i32 : BitVec 32 := 31#32
  let v1 : BitVec 32 := Scalar.addi v0 c31_i32
  let arg1 : BitVec 32 := BitVec.ofNat 32 (i 1).val
  let c128_i32 : BitVec 32 := 128#32
  let v2 : BitVec 32 := Scalar.muli arg1 c128_i32
  let v3 : BitVec 32 := Scalar.subi v1 v2
  let c_m31_i32 : BitVec 32 := 4294967265#32
  let v4 : BitVec 1 := Scalar.cmpi .sle v3 c_m31_i32
  let c32_i32_0 : BitVec 32 := 32#32
  let v5 : BitVec 32 := Scalar.muli arg0 c32_i32_0
  let c128_i32_1 : BitVec 32 := 128#32
  let v6 : BitVec 32 := Scalar.muli arg1 c128_i32_1
  let c127_i32 : BitVec 32 := 127#32
  let v7 : BitVec 32 := Scalar.addi v6 c127_i32
  let v8 : BitVec 32 := Scalar.subi v5 v7
  let c31_i32_2 : BitVec 32 := 31#32
  let v9 : BitVec 1 := Scalar.cmpi .sge v8 c31_i32_2
  let v10 : BitVec 1 := Scalar.ori v4 v9
  let v_true : BitVec 1 := 1#1
  let v11 : BitVec 1 := Scalar.xori v10 v_true
  let v16 : BitVec 32 := Scalar.extui v11
  let c0_i32_4 : BitVec 32 := 0#32
  let v17 : BitVec 1 := Scalar.cmpi .ne v16 c0_i32_4
  v17

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S63x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x32x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S128x63_S63x128_1_0 : S128x63.Transposes [1, 0] S63x128
  bitsLt_bf16_f32 : FTy.bits .bf16 < FTy.bits .f32
  inb_S63x128_S1x128_0_0 : ∀ a, (![0, 0] : Fin 2 → Nat) a + S1x128.size a ≤ S63x128.size a
  h_S1x128 : 0 < S1x128.numel
  shapeCasts_S1x128_S128 : S1x128.ShapeCasts S128
  inb_S128_S128_0 : ∀ a, (![0] : Fin 1 → Nat) a + S128.size a ≤ S128.size a
  h_S128 : 0 < S128.numel
  shapeCasts_S128_S1x1x1x128 : S128.ShapeCasts S1x1x1x128
  shapeCasts_S1x1x1x128_S1x1x1x128 : S1x1x1x128.ShapeCasts S1x1x1x128
  broadcasts_S1x1x1x128_S2x32x128x128 : S1x1x1x128.Broadcasts S2x32x128x128
  inb_S2x32x128x128_S2x32x128x128_0_0_0_0 : ∀ a, (![0, 0, 0, 0] : Fin 4 → Nat) a + S2x32x128x128.size a ≤ S2x32x128x128.size a
  h_S2x32x128x128 : 0 < S2x32x128x128.numel
  inb_S63x128_S1x128_62_0 : ∀ a, (![62, 0] : Fin 2 → Nat) a + S1x128.size a ≤ S63x128.size a
  iota_S32x128_d0_w32 : S32x128.Iotas .tc 32 [0]
  iota_S32x128_d1_w32 : S32x128.Iotas .tc 32 [1]
  iota_S32x128x63_d2_w32 : S32x128x63.Iotas .tc 32 [2]
  shapeCasts_S32x128_S32x128x1 : S32x128.ShapeCasts S32x128x1
  broadcasts_S32x128x1_S32x128x63 : S32x128x1.Broadcasts S32x128x63
  natLt_1_32 : 1 < 32
  shapeCasts_S32x128x63_S4096x63 : S32x128x63.ShapeCasts S4096x63
  inb_S63x128_S63x128_0_0 : ∀ a, (![0, 0] : Fin 2 → Nat) a + S63x128.size a ≤ S63x128.size a
  h_S63x128 : 0 < S63x128.numel
  shapeCasts_S63x128_S63x128 : S63x128.ShapeCasts S63x128
  shapeCasts_S4096x128_S32x128x128 : S4096x128.ShapeCasts S32x128x128
  shapeCasts_S128_S1x1x128 : S128.ShapeCasts S1x1x128
  broadcasts_S1x1x128_S32x128x128 : S1x1x128.Broadcasts S32x128x128
  shapeCasts_S32x128x128_S1x32x128x128 : S32x128x128.ShapeCasts S1x32x128x128
  shapeCasts_S1x32x128x128_S1x32x128x128 : S1x32x128x128.ShapeCasts S1x32x128x128
  broadcasts_S1x32x128x128_S2x32x128x128 : S1x32x128x128.Broadcasts S2x32x128x128
  dot_S4096x63_S63x128_S4096x128_1_0_0_1_n_n_wf : DotDims.WF S4096x63 S63x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32x128x128.size a ≤ S2x512x512x128.size a
  hwx0_0 : ∀ i : grid0.Coords, EltTy.bits .f32 = 32 ∨ (Rect.block (s := S2x512x512x128) S2x32x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x128.size a ≤ S63x128.size a
  hwx0_1 : ∀ i : grid0.Coords, EltTy.bits .bf16 = 32 ∨ (Rect.block (s := S63x128) S63x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x32x128x128.size a ≤ S2x512x512x128.size a
  hwx0_3 : ∀ i : grid0.Coords, EltTy.bits .f32 = 32 ∨ (Rect.block (s := S2x512x512x128) S2x32x128x128.size (cc0_transform_3 i) (hinb0_3 i)).WholeWords (EltTy.packing .f32)

variable [Facts₀]

def dot_S4096x63_S63x128_S4096x128_1_0_0_1_n_n : DotDims S4096x63 S63x128 S4096x128 where
  lhsContracting := [1]
  rhsContracting := [0]
  lhsNonContracting := [0]
  rhsNonContracting := [1]
  lhsBatch := []
  rhsBatch := []
  wf := dot_S4096x63_S63x128_S4096x128_1_0_0_1_n_n_wf

abbrev win0_0 : Pipeline.Window sig grid0 :=
  Pipeline.Window.ofSpec (Memref.whole main_arg0) S2x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S63x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x32x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S2x512x512x128 : Shape := ⟨4, ![2, 512, 512, 128]⟩
abbrev S2x512 : Shape := ⟨2, ![2, 512]⟩
abbrev S128x63 : Shape := ⟨2, ![128, 63]⟩
abbrev S128 : Shape := ⟨1, ![128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S63x128 : Shape := ⟨2, ![63, 128]⟩
abbrev S512x512x1 : Shape := ⟨3, ![512, 512, 1]⟩
abbrev S512x512x128 : Shape := ⟨3, ![512, 512, 128]⟩
abbrev S1x1x128 : Shape := ⟨3, ![1, 1, 128]⟩
abbrev S1x512x512x128 : Shape := ⟨4, ![1, 512, 512, 128]⟩

abbrev nBuf : Space → Nat
  | .hbm => 37
  | .vmem => 0
  | .smem => 0
  | _ => 0

abbrev bufTy : (tb : Table) → Fin (tcTables nBuf tb) → BufTy
  | .hbm, ⟨0, _⟩ => ⟨S2x512x512x128, .f32⟩
  | .hbm, ⟨1, _⟩ => ⟨S2x512, .i32⟩
  | .hbm, ⟨2, _⟩ => ⟨S128x63, .f32⟩
  | .hbm, ⟨3, _⟩ => ⟨S128, .f32⟩
  | .hbm, ⟨4, _⟩ => ⟨S512, .i32⟩
  | .hbm, ⟨5, _⟩ => ⟨S512x1, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i32⟩
  | .hbm, ⟨21, _⟩ => ⟨S63x128, .f32⟩
  | .hbm, ⟨22, _⟩ => ⟨S_, .i32⟩
  | .hbm, ⟨23, _⟩ => ⟨S512x512, .i32⟩
  | .hbm, ⟨24, _⟩ => ⟨S512x512, .i1⟩
  | .hbm, ⟨25, _⟩ => ⟨S_, .i32⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S512x512x1, .i32⟩
  | .hbm, ⟨30, _⟩ => ⟨S512x512x128, .f32⟩
  | .hbm, ⟨31, _⟩ => ⟨S1x1x128, .f32⟩
  | .hbm, ⟨32, _⟩ => ⟨S512x512x128, .f32⟩
  | .hbm, ⟨33, _⟩ => ⟨S512x512x128, .f32⟩
  | .hbm, ⟨34, _⟩ => ⟨S1x512x512x128, .f32⟩
  | .hbm, ⟨35, _⟩ => ⟨S2x512x512x128, .f32⟩
  | .hbm, ⟨36, _⟩ => ⟨S2x512x512x128, .f32⟩
  | _, _ => ⟨S2x512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  transposes_S128x63_S63x128_1_0 : S128x63.Transposes [1, 0] S63x128
  bcast_S512x512_S512x512x1_0_1 : S512x512.BroadcastsInDim S512x512x1 (![0, 1] : Fin 2 → Fin S512x512x1.rank)
  bcast_S128_S1x1x128_2 : S128.BroadcastsInDim S1x1x128 (![2] : Fin 1 → Fin S1x1x128.rank)
  bcast_S1x1x128_S512x512x128_0_1_2 : S1x1x128.BroadcastsInDim S512x512x128 (![0, 1, 2] : Fin 3 → Fin S512x512x128.rank)
  bcast_S512x512x128_S1x512x512x128_1_2_3 : S512x512x128.BroadcastsInDim S1x512x512x128 (![1, 2, 3] : Fin 3 → Fin S1x512x512x128.rank)
  bcast_S1x512x512x128_S2x512x512x128_0_1_2_3 : S1x512x512x128.BroadcastsInDim S2x512x512x128 (![0, 1, 2, 3] : Fin 4 → Fin S2x512x512x128.rank)
  gather_S63x128_S512x512x1_S512x512x128_2_0_n_n_0_2_1128_wf : GatherDims.WF S63x128 S512x512x1 S512x512x128 [2] [0] [] [0] [] 2 ![1, 128]

variable [Facts₀]

def gather_S63x128_S512x512x1_S512x512x128_2_0_n_n_0_2_1128 : GatherDims S63x128 S512x512x1 S512x512x128 where
  offsetDims := [2]
  collapsedSliceDims := [0]
  operandBatchingDims := []
  startIndicesBatchingDims := []
  startIndexMap := [0]
  indexVectorDim := 2
  sliceSizes := ![1, 128]
  wf := gather_S63x128_S512x512x1_S512x512x128_2_0_n_n_0_2_1128_wf

class Facts : Prop extends Facts₀ where

variable [Facts]
-- ==== Proof.BodyBits.lean ====
/-
  The body of the relative-position kernel: what it leaves in the output tile's buffer at each grid point, and its
  triple in each of its three control cases.

  The grid is 16 x 4 tiles (qi, ki); a tile holds the 32 query rows 32*qi .. 32*qi + 31 against the 128 key
  columns 128*ki .. 128*ki + 127, for both batch entries and all 128 features. The body computes three conditions from
  (qi, ki) alone: the whole tile lies at or below the band (every q - k <= -31), the whole tile lies at or above
  it (every q - k >= 31), or neither. Over the 64 points exactly one of the three holds (decided by evaluation),
  so at every point exactly one of the three guarded regions runs, and each stores the WHOLE output tile once:
  the input tile plus one row of the table plus the bias (the first two), or plus the one-hot product with the
  table plus the bias (the third). The output buffer is read before it is overwritten, and what is read is not used.
-/
import proofs.«169746_j76501957476438_2_alg».proof.Proof.Gen.Kernel.Frame
import proofs.«169746_j76501957476438_2_alg».proof.Proof.Gen.Kernel.Skeleton
import Idealize.ShloMosaic.Lib.Pipeline.Frame
import Idealize.ShloMosaic.Lib.Exec.Geometry

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- The whole [2, 32, 128, 128] tile, -/
abbrev rTile : Rect S2x32x128x128 :=
  Rect.unit (s := S2x32x128x128) ![0, 0, 0, 0] S2x32x128x128.size Facts₀.inb_S2x32x128x128_S2x32x128x128_0_0_0_0
/-- row 0 of the [63, 128] table (the bin of a tile wholly below the band), -/
abbrev rRowLo : Rect S63x128 := Rect.unit (s := S63x128) ![0, 0] S1x128.size Facts₀.inb_S63x128_S1x128_0_0
/-- row 62 of it (the bin of a tile wholly above the band), -/
abbrev rRowHi : Rect S63x128 := Rect.unit (s := S63x128) ![62, 0] S1x128.size Facts₀.inb_S63x128_S1x128_62_0
/-- the whole table, -/
abbrev rTable : Rect S63x128 := Rect.unit (s := S63x128) ![0, 0] S63x128.size Facts₀.inb_S63x128_S63x128_0_0
/-- the whole bias vector. -/
abbrev rBias : Rect S128 := Rect.unit (s := S128) ![0] S128.size Facts₀.inb_S128_S128_0

/-! ## The three control cases, over the grid -/

/-- At every grid point exactly one of the body's three conditions holds. -/
theorem one_case : ∀ t : Fin cfg0.N,
    (k0_cond1 (grid0.coords t) = 1#1 ∧ ¬ k0_cond2 (grid0.coords t) = 1#1 ∧ ¬ k0_cond3 (grid0.coords t) = 1#1)
    ∨ (¬ k0_cond1 (grid0.coords t) = 1#1 ∧ k0_cond2 (grid0.coords t) = 1#1 ∧ ¬ k0_cond3 (grid0.coords t) = 1#1)
    ∨ (¬ k0_cond1 (grid0.coords t) = 1#1 ∧ ¬ k0_cond2 (grid0.coords t) = 1#1 ∧ k0_cond3 (grid0.coords t) = 1#1) :=
  (by decide +kernel : ∀ t : Fin grid0.N, _)

/-- So the output window is idle at no point: some region stores into it everywhere. -/
theorem live_out : ∀ t : Fin cfg0.N, cfg0.idle 3 (grid0.coords t) = false :=
  (by decide +kernel : ∀ t : Fin grid0.N, _)

/-- The three input windows are idle nowhere. -/
theorem live_x : ∀ t : Fin cfg0.N, cfg0.idle 0 (grid0.coords t) = false := fun _ => rfl
theorem live_table : ∀ t : Fin cfg0.N, cfg0.idle 1 (grid0.coords t) = false := fun _ => rfl
theorem live_bias : ∀ t : Fin cfg0.N, cfg0.idle 2 (grid0.coords t) = false := fun _ => rfl

/-! ## What the body leaves in the output tile's buffer -/

/-- Below the band: the input tile plus (table row 0 plus bias), one store of the whole tile. -/
def outLo (x0 : Vec F S2x32x128x128 .f32) (w0 : Vec F S63x128 .bf16) (b0 : Vec F S128 .f32) : Vec F S2x32x128x128 .f32 :=
  View.canon [⟨rTile, k0_pay1 (View.ld w0 rRowLo) (View.ld b0 rBias) (View.ld x0 rTile)⟩]
/-- Above the band: the same with table row 62. -/
def outHi (x0 : Vec F S2x32x128x128 .f32) (w0 : Vec F S63x128 .bf16) (b0 : Vec F S128 .f32) : Vec F S2x32x128x128 .f32 :=
  View.canon [⟨rTile, k0_pay2 (View.ld w0 rRowHi) (View.ld b0 rBias) (View.ld x0 rTile)⟩]
/-- Across the band: the input tile plus (the one-hot product with the whole table plus bias). -/
def outMid (i : grid0.Coords) (x0 : Vec F S2x32x128x128 .f32) (w0 : Vec F S63x128 .bf16) (b0 : Vec F S128 .f32) : Vec F S2x32x128x128 .f32 :=
  View.canon [⟨rTile, k0_pay3 i (View.ld w0 rTable) (View.ld b0 rBias) (View.ld x0 rTile)⟩]

/-- The tile's buffer after the body at grid coordinates `i`, by the case the coordinates are in. -/
def outAt (i : grid0.Coords) (x0 : Vec F S2x32x128x128 .f32) (w0 : Vec F S63x128 .bf16) (b0 : Vec F S128 .f32) : Vec F S2x32x128x128 .f32 :=
  if k0_cond1 i = 1#1 then outLo x0 w0 b0
  else if k0_cond2 i = 1#1 then outHi x0 w0 b0
  else outMid i x0 w0 b0

/-- One store through the whole tile covers the buffer. -/
theorem cover_tile (p0 : Vec F S2x32x128x128 .f32) (y : S2x32x128x128.Idx) :
    ∃ pc ∈ ([⟨rTile, p0⟩] : List (View.Piece (Elt F) S2x32x128x128 .f32)), y ∈ pc.1.set :=
  View.cover_of_tiled [⟨rTile, p0⟩] S2x32x128x128.size (by rfl) y

/-! ## The body's triple, case by case -/

set_option maxHeartbeats 2000000 in
/-- Below the band: only the first region runs. -/
theorem sound_lo (c : Dev nD) (E : Set ℕ) (i : grid0.Coords)
    (arg2 : Memref sig .tc .vmem S2x32x128x128 .f32) (harg2 : arg2.IsWhole) (arg3 : Memref sig .tc .vmem S63x128 .bf16) (harg3 : arg3.IsWhole)
    (arg4 : Memref sig .tc .vmem S128 .f32) (harg4 : arg4.IsWhole) (arg5 : Memref sig .tc .vmem S2x32x128x128 .f32) (harg5 : arg5.IsWhole)
    (h1 : k0_cond1 i = 1#1) (h2 : ¬ k0_cond2 i = 1#1) (h3 : ¬ k0_cond3 i = 1#1)
    (x0 : Vec F S2x32x128x128 .f32) (w0 : Vec F S63x128 .bf16) (b0 : Vec F S128 .f32) (K : PUnit → sProp 𝕄) :
    iprop(owns (c : Thread nD τ) arg2 fullShare x0 ∗ owns (c : Thread nD τ) arg3 fullShare w0 ∗ owns (c : Thread nD τ) arg4 fullShare b0
        ∗ (∃ d, owns (c : Thread nD τ) arg5 fullShare d)
        ∗ (iprop(owns (c : Thread nD τ) arg2 fullShare x0 ∗ owns (c : Thread nD τ) arg3 fullShare w0 ∗ owns (c : Thread nD τ) arg4 fullShare b0
            ∗ owns (c : Thread nD τ) arg5 fullShare (outLo x0 w0 b0)) -∗ K ⟨⟩))
      ⊢ wp frame (wpE (defs₀ (F := F)) Variants.none c none) E (cc0__rel_pos_kernel i arg2 harg2 arg3 harg3 arg4 harg4 arg5 harg5) K := by
  simp only [cc0__rel_pos_kernel_eq_skeleton]; unfold cc0__rel_pos_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_tile _)

set_option maxHeartbeats 2000000 in
/-- Above the band: only the second region runs. -/
theorem sound_hi (c : Dev nD) (E : Set ℕ) (i : grid0.Coords)
    (arg2 : Memref sig .tc .vmem S2x32x128x128 .f32) (harg2 : arg2.IsWhole) (arg3 : Memref sig .tc .vmem S63x128 .bf16) (harg3 : arg3.IsWhole)
    (arg4 : Memref sig .tc .vmem S128 .f32) (harg4 : arg4.IsWhole) (arg5 : Memref sig .tc .vmem S2x32x128x128 .f32) (harg5 : arg5.IsWhole)
    (h1 : ¬ k0_cond1 i = 1#1) (h2 : k0_cond2 i = 1#1) (h3 : ¬ k0_cond3 i = 1#1)
    (x0 : Vec F S2x32x128x128 .f32) (w0 : Vec F S63x128 .bf16) (b0 : Vec F S128 .f32) (K : PUnit → sProp 𝕄) :
    iprop(owns (c : Thread nD τ) arg2 fullShare x0 ∗ owns (c : Thread nD τ) arg3 fullShare w0 ∗ owns (c : Thread nD τ) arg4 fullShare b0
        ∗ (∃ d, owns (c : Thread nD τ) arg5 fullShare d)
        ∗ (iprop(owns (c : Thread nD τ) arg2 fullShare x0 ∗ owns (c : Thread nD τ) arg3 fullShare w0 ∗ owns (c : Thread nD τ) arg4 fullShare b0
            ∗ owns (c : Thread nD τ) arg5 fullShare (outHi x0 w0 b0)) -∗ K ⟨⟩))
      ⊢ wp frame (wpE (defs₀ (F := F)) Variants.none c none) E (cc0__rel_pos_kernel i arg2 harg2 arg3 harg3 arg4 harg4 arg5 harg5) K := by
  simp only [cc0__rel_pos_kernel_eq_skeleton]; unfold cc0__rel_pos_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_tile _)

set_option maxHeartbeats 2000000 in
/-- Across the band: only the third region runs. -/
theorem sound_mid (c : Dev nD) (E : Set ℕ) (i : grid0.Coords)
    (arg2 : Memref sig .tc .vmem S2x32x128x128 .f32) (harg2 : arg2.IsWhole) (arg3 : Memref sig .tc .vmem S63x128 .bf16) (harg3 : arg3.IsWhole)
    (arg4 : Memref sig .tc .vmem S128 .f32) (harg4 : arg4.IsWhole) (arg5 : Memref sig .tc .vmem S2x32x128x128 .f32) (harg5 : arg5.IsWhole)
    (h1 : ¬ k0_cond1 i = 1#1) (h2 : ¬ k0_cond2 i = 1#1) (h3 : k0_cond3 i = 1#1)
    (x0 : Vec F S2x32x128x128 .f32) (w0 : Vec F S63x128 .bf16) (b0 : Vec F S128 .f32) (K : PUnit → sProp 𝕄) :
    iprop(owns (c : Thread nD τ) arg2 fullShare x0 ∗ owns (c : Thread nD τ) arg3 fullShare w0 ∗ owns (c : Thread nD τ) arg4 fullShare b0
        ∗ (∃ d, owns (c : Thread nD τ) arg5 fullShare d)
        ∗ (iprop(owns (c : Thread nD τ) arg2 fullShare x0 ∗ owns (c : Thread nD τ) arg3 fullShare w0 ∗ owns (c : Thread nD τ) arg4 fullShare b0
            ∗ owns (c : Thread nD τ) arg5 fullShare (outMid i x0 w0 b0)) -∗ K ⟨⟩))
      ⊢ wp frame (wpE (defs₀ (F := F)) Variants.none c none) E (cc0__rel_pos_kernel i arg2 harg2 arg3 harg3 arg4 harg4 arg5 harg5) K := by
  simp only [cc0__rel_pos_kernel_eq_skeleton]; unfold cc0__rel_pos_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_tile _)

end Cert.Kernel.Tile

end
-- ==== Proof.RunBits.lean ====
/-
  The pipeline's proof data for the relative-position kernel, its body obligation from the three case triples, the
  run of the whole program and its frame. At every grid point the three input windows hold their blocks (the table
  and the bias are fetched once, at the first point, and stay), the point is in exactly one of the three control
  cases, and the output tile is written back at every point, so what the body leaves in it is always named.
-/
import proofs.«169746_j76501957476438_2_alg».proof.Proof.BodyBits
import Idealize.ShloMosaic.Lib.Pipeline.Frame
import Idealize.ShloMosaic.Lib.Exec.Geometry

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point
    `t` each input's buffer at its block and the output tile's at `outAt` of the input blocks at the point's
    coordinates; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_table (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_out (c : Dev nD) (t : Fin cfg0.N) :
    (dats m 0 c).after 3 t = outAt (grid0.coords t) (iblk m c 0 t) (iblk m c 1 t) (iblk m c 2 t) := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_table (c : Dev nD) (t : Fin cfg0.N) (d) : (dats m 0 c).before 1 t d = iblk m c 1 t :=
  before0_1_of m (dats m 0 c) (A_eq m c 1) (after_table m c) t d
theorem before_bias (c : Dev nD) (t : Fin cfg0.N) (d) : (dats m 0 c).before 2 t d = iblk m c 2 t :=
  before0_2_of m (dats m 0 c) (A_eq m c 2) (after_bias m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The body at any point: the inputs' buffers hold their blocks, the point is in exactly one of the three cases, and
    that case's triple applies; the output is live at the point, so what the body leaves there is `after`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_table, before_bias]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from by
      unfold Dat.leavesExact; rw [live_x t],
    show (dats m 0 c).leavesExact 1 t = owns (c : Thread nD τ) (st0_1 t) fullShare ((dats m 0 c).after 1 t) from by
      unfold Dat.leavesExact; rw [live_table t],
    show (dats m 0 c).leavesExact 2 t = owns (c : Thread nD τ) (st0_2 t) fullShare ((dats m 0 c).after 2 t) from by
      unfold Dat.leavesExact; rw [live_bias t],
    show (dats m 0 c).leavesExact 3 t = owns (c : Thread nD τ) (st0_3 t) fullShare ((dats m 0 c).after 3 t) from by
      unfold Dat.leavesExact; rw [live_out t],
    after_x, after_table, after_bias, after_out]
  rcases one_case t with ⟨h1, h2, h3⟩ | ⟨h1, h2, h3⟩ | ⟨h1, h2, h3⟩
  · rw [show outAt (grid0.coords t) (iblk m c 0 t) (iblk m c 1 t) (iblk m c 2 t) = outLo (iblk m c 0 t) (iblk m c 1 t) (iblk m c 2 t) from by
      unfold outAt; rw [if_pos h1]]
    iintro ⟨HΦ, Ho, ⟨%d0, H0⟩, ⟨%d1, H1⟩, ⟨%d2, H2⟩, ⟨%d3, H3⟩⟩
    iapply (sound_lo c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [show outAt (grid0.coords t) (iblk m c 0 t) (iblk m c 1 t) (iblk m c 2 t) = outHi (iblk m c 0 t) (iblk m c 1 t) (iblk m c 2 t) from by
      unfold outAt; rw [if_neg h1, if_pos h2]]
    iintro ⟨HΦ, Ho, ⟨%d0, H0⟩, ⟨%d1, H1⟩, ⟨%d2, H2⟩, ⟨%d3, H3⟩⟩
    iapply (sound_hi c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [show outAt (grid0.coords t) (iblk m c 0 t) (iblk m c 1 t) (iblk m c 2 t) = outMid (grid0.coords t) (iblk m c 0 t) (iblk m c 1 t) (iblk m c 2 t) from by
      unfold outAt; rw [if_neg h1, if_neg h2]]
    iintro ⟨HΦ, Ho, ⟨%d0, H0⟩, ⟨%d1, H1⟩, ⟨%d2, H2⟩, ⟨%d3, H3⟩⟩
    iapply (sound_mid c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the program runs to the end, faults nowhere and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Tile

end
-- ==== Proof.BodyIdeal.lean ====
/-
  The body of the relative-position kernel: what it leaves in the output tile's buffer at each grid point, and its
  triple in each of its three control cases.

  The grid is 16 x 4 tiles (qi, ki); a tile holds the 32 query rows 32*qi .. 32*qi + 31 against the 128 key
  columns 128*ki .. 128*ki + 127, for both batch entries and all 128 features. The body computes three conditions from
  (qi, ki) alone: the whole tile lies at or below the band (every q - k <= -31), the whole tile lies at or above
  it (every q - k >= 31), or neither. Over the 64 points exactly one of the three holds (decided by evaluation),
  so at every point exactly one of the three guarded regions runs, and each stores the WHOLE output tile once:
  the input tile plus one row of the table plus the bias (the first two), or plus the one-hot product with the
  table plus the bias (the third). The output buffer is read before it is overwritten, and what is read is not used.
-/
import proofs.«169746_j76501957476438_2_alg».proof.Proof.Gen.KernelIdeal.Frame
import proofs.«169746_j76501957476438_2_alg».proof.Proof.Gen.KernelIdeal.Skeleton
import Idealize.ShloMosaic.Lib.Pipeline.Frame
import Idealize.ShloMosaic.Lib.Exec.Geometry

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through -/

/-- The whole [2, 32, 128, 128] tile, -/
abbrev rTile : Rect S2x32x128x128 :=
  Rect.unit (s := S2x32x128x128) ![0, 0, 0, 0] S2x32x128x128.size Facts₀.inb_S2x32x128x128_S2x32x128x128_0_0_0_0
/-- row 0 of the [63, 128] table (the bin of a tile wholly below the band), -/
abbrev rRowLo : Rect S63x128 := Rect.unit (s := S63x128) ![0, 0] S1x128.size Facts₀.inb_S63x128_S1x128_0_0
/-- row 62 of it (the bin of a tile wholly above the band), -/
abbrev rRowHi : Rect S63x128 := Rect.unit (s := S63x128) ![62, 0] S1x128.size Facts₀.inb_S63x128_S1x128_62_0
/-- the whole table, -/
abbrev rTable : Rect S63x128 := Rect.unit (s := S63x128) ![0, 0] S63x128.size Facts₀.inb_S63x128_S63x128_0_0
/-- the whole bias vector. -/
abbrev rBias : Rect S128 := Rect.unit (s := S128) ![0] S128.size Facts₀.inb_S128_S128_0

/-! ## The three control cases, over the grid -/

/-- At every grid point exactly one of the body's three conditions holds. -/
theorem one_case : ∀ t : Fin cfg0.N,
    (k0_cond1 (grid0.coords t) = 1#1 ∧ ¬ k0_cond2 (grid0.coords t) = 1#1 ∧ ¬ k0_cond3 (grid0.coords t) = 1#1)
    ∨ (¬ k0_cond1 (grid0.coords t) = 1#1 ∧ k0_cond2 (grid0.coords t) = 1#1 ∧ ¬ k0_cond3 (grid0.coords t) = 1#1)
    ∨ (¬ k0_cond1 (grid0.coords t) = 1#1 ∧ ¬ k0_cond2 (grid0.coords t) = 1#1 ∧ k0_cond3 (grid0.coords t) = 1#1) :=
  (by decide +kernel : ∀ t : Fin grid0.N, _)

/-- So the output window is idle at no point: some region stores into it everywhere. -/
theorem live_out : ∀ t : Fin cfg0.N, cfg0.idle 3 (grid0.coords t) = false :=
  (by decide +kernel : ∀ t : Fin grid0.N, _)

/-- The three input windows are idle nowhere. -/
theorem live_x : ∀ t : Fin cfg0.N, cfg0.idle 0 (grid0.coords t) = false := fun _ => rfl
theorem live_table : ∀ t : Fin cfg0.N, cfg0.idle 1 (grid0.coords t) = false := fun _ => rfl
theorem live_bias : ∀ t : Fin cfg0.N, cfg0.idle 2 (grid0.coords t) = false := fun _ => rfl

/-! ## What the body leaves in the output tile's buffer -/

/-- Below the band: the input tile plus (table row 0 plus bias), one store of the whole tile. -/
def outLo (x0 : Vec F S2x32x128x128 .f32) (w0 : Vec F S63x128 .bf16) (b0 : Vec F S128 .f32) : Vec F S2x32x128x128 .f32 :=
  View.canon [⟨rTile, k0_pay1 (View.ld w0 rRowLo) (View.ld b0 rBias) (View.ld x0 rTile)⟩]
/-- Above the band: the same with table row 62. -/
def outHi (x0 : Vec F S2x32x128x128 .f32) (w0 : Vec F S63x128 .bf16) (b0 : Vec F S128 .f32) : Vec F S2x32x128x128 .f32 :=
  View.canon [⟨rTile, k0_pay2 (View.ld w0 rRowHi) (View.ld b0 rBias) (View.ld x0 rTile)⟩]
/-- Across the band: the input tile plus (the one-hot product with the whole table plus bias). -/
def outMid (i : grid0.Coords) (x0 : Vec F S2x32x128x128 .f32) (w0 : Vec F S63x128 .bf16) (b0 : Vec F S128 .f32) : Vec F S2x32x128x128 .f32 :=
  View.canon [⟨rTile, k0_pay3 i (View.ld w0 rTable) (View.ld b0 rBias) (View.ld x0 rTile)⟩]

/-- The tile's buffer after the body at grid coordinates `i`, by the case the coordinates are in. -/
def outAt (i : grid0.Coords) (x0 : Vec F S2x32x128x128 .f32) (w0 : Vec F S63x128 .bf16) (b0 : Vec F S128 .f32) : Vec F S2x32x128x128 .f32 :=
  if k0_cond1 i = 1#1 then outLo x0 w0 b0
  else if k0_cond2 i = 1#1 then outHi x0 w0 b0
  else outMid i x0 w0 b0

/-- One store through the whole tile covers the buffer. -/
theorem cover_tile (p0 : Vec F S2x32x128x128 .f32) (y : S2x32x128x128.Idx) :
    ∃ pc ∈ ([⟨rTile, p0⟩] : List (View.Piece (Elt F) S2x32x128x128 .f32)), y ∈ pc.1.set :=
  View.cover_of_tiled [⟨rTile, p0⟩] S2x32x128x128.size (by rfl) y

/-! ## The body's triple, case by case -/

set_option maxHeartbeats 2000000 in
/-- Below the band: only the first region runs. -/
theorem sound_lo (c : Dev nD) (E : Set ℕ) (i : grid0.Coords)
    (arg2 : Memref sig .tc .vmem S2x32x128x128 .f32) (harg2 : arg2.IsWhole) (arg3 : Memref sig .tc .vmem S63x128 .bf16) (harg3 : arg3.IsWhole)
    (arg4 : Memref sig .tc .vmem S128 .f32) (harg4 : arg4.IsWhole) (arg5 : Memref sig .tc .vmem S2x32x128x128 .f32) (harg5 : arg5.IsWhole)
    (h1 : k0_cond1 i = 1#1) (h2 : ¬ k0_cond2 i = 1#1) (h3 : ¬ k0_cond3 i = 1#1)
    (x0 : Vec F S2x32x128x128 .f32) (w0 : Vec F S63x128 .bf16) (b0 : Vec F S128 .f32) (K : PUnit → sProp 𝕄) :
    iprop(owns (c : Thread nD τ) arg2 fullShare x0 ∗ owns (c : Thread nD τ) arg3 fullShare w0 ∗ owns (c : Thread nD τ) arg4 fullShare b0
        ∗ (∃ d, owns (c : Thread nD τ) arg5 fullShare d)
        ∗ (iprop(owns (c : Thread nD τ) arg2 fullShare x0 ∗ owns (c : Thread nD τ) arg3 fullShare w0 ∗ owns (c : Thread nD τ) arg4 fullShare b0
            ∗ owns (c : Thread nD τ) arg5 fullShare (outLo x0 w0 b0)) -∗ K ⟨⟩))
      ⊢ wp frame (wpE (defs₀ (F := F)) Variants.none c none) E (cc0__rel_pos_kernel i arg2 harg2 arg3 harg3 arg4 harg4 arg5 harg5) K := by
  simp only [cc0__rel_pos_kernel_eq_skeleton]; unfold cc0__rel_pos_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_tile _)

set_option maxHeartbeats 2000000 in
/-- Above the band: only the second region runs. -/
theorem sound_hi (c : Dev nD) (E : Set ℕ) (i : grid0.Coords)
    (arg2 : Memref sig .tc .vmem S2x32x128x128 .f32) (harg2 : arg2.IsWhole) (arg3 : Memref sig .tc .vmem S63x128 .bf16) (harg3 : arg3.IsWhole)
    (arg4 : Memref sig .tc .vmem S128 .f32) (harg4 : arg4.IsWhole) (arg5 : Memref sig .tc .vmem S2x32x128x128 .f32) (harg5 : arg5.IsWhole)
    (h1 : ¬ k0_cond1 i = 1#1) (h2 : k0_cond2 i = 1#1) (h3 : ¬ k0_cond3 i = 1#1)
    (x0 : Vec F S2x32x128x128 .f32) (w0 : Vec F S63x128 .bf16) (b0 : Vec F S128 .f32) (K : PUnit → sProp 𝕄) :
    iprop(owns (c : Thread nD τ) arg2 fullShare x0 ∗ owns (c : Thread nD τ) arg3 fullShare w0 ∗ owns (c : Thread nD τ) arg4 fullShare b0
        ∗ (∃ d, owns (c : Thread nD τ) arg5 fullShare d)
        ∗ (iprop(owns (c : Thread nD τ) arg2 fullShare x0 ∗ owns (c : Thread nD τ) arg3 fullShare w0 ∗ owns (c : Thread nD τ) arg4 fullShare b0
            ∗ owns (c : Thread nD τ) arg5 fullShare (outHi x0 w0 b0)) -∗ K ⟨⟩))
      ⊢ wp frame (wpE (defs₀ (F := F)) Variants.none c none) E (cc0__rel_pos_kernel i arg2 harg2 arg3 harg3 arg4 harg4 arg5 harg5) K := by
  simp only [cc0__rel_pos_kernel_eq_skeleton]; unfold cc0__rel_pos_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_tile _)

set_option maxHeartbeats 2000000 in
/-- Across the band: only the third region runs. -/
theorem sound_mid (c : Dev nD) (E : Set ℕ) (i : grid0.Coords)
    (arg2 : Memref sig .tc .vmem S2x32x128x128 .f32) (harg2 : arg2.IsWhole) (arg3 : Memref sig .tc .vmem S63x128 .bf16) (harg3 : arg3.IsWhole)
    (arg4 : Memref sig .tc .vmem S128 .f32) (harg4 : arg4.IsWhole) (arg5 : Memref sig .tc .vmem S2x32x128x128 .f32) (harg5 : arg5.IsWhole)
    (h1 : ¬ k0_cond1 i = 1#1) (h2 : ¬ k0_cond2 i = 1#1) (h3 : k0_cond3 i = 1#1)
    (x0 : Vec F S2x32x128x128 .f32) (w0 : Vec F S63x128 .bf16) (b0 : Vec F S128 .f32) (K : PUnit → sProp 𝕄) :
    iprop(owns (c : Thread nD τ) arg2 fullShare x0 ∗ owns (c : Thread nD τ) arg3 fullShare w0 ∗ owns (c : Thread nD τ) arg4 fullShare b0
        ∗ (∃ d, owns (c : Thread nD τ) arg5 fullShare d)
        ∗ (iprop(owns (c : Thread nD τ) arg2 fullShare x0 ∗ owns (c : Thread nD τ) arg3 fullShare w0 ∗ owns (c : Thread nD τ) arg4 fullShare b0
            ∗ owns (c : Thread nD τ) arg5 fullShare (outMid i x0 w0 b0)) -∗ K ⟨⟩))
      ⊢ wp frame (wpE (defs₀ (F := F)) Variants.none c none) E (cc0__rel_pos_kernel i arg2 harg2 arg3 harg3 arg4 harg4 arg5 harg5) K := by
  simp only [cc0__rel_pos_kernel_eq_skeleton]; unfold cc0__rel_pos_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_tile _)

end Cert.KernelIdeal.Tile

end
-- ==== Proof.RunIdeal.lean ====
/-
  The pipeline's proof data for the relative-position kernel, its body obligation from the three case triples, the
  run of the whole program and its frame. At every grid point the three input windows hold their blocks (the table
  and the bias are fetched once, at the first point, and stay), the point is in exactly one of the three control
  cases, and the output tile is written back at every point, so what the body leaves in it is always named.
-/
import proofs.«169746_j76501957476438_2_alg».proof.Proof.BodyIdeal
import Idealize.ShloMosaic.Lib.Pipeline.Frame
import Idealize.ShloMosaic.Lib.Exec.Geometry

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point
    `t` each input's buffer at its block and the output tile's at `outAt` of the input blocks at the point's
    coordinates; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_table (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_out (c : Dev nD) (t : Fin cfg0.N) :
    (dats m 0 c).after 3 t = outAt (grid0.coords t) (iblk m c 0 t) (iblk m c 1 t) (iblk m c 2 t) := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_table (c : Dev nD) (t : Fin cfg0.N) (d) : (dats m 0 c).before 1 t d = iblk m c 1 t :=
  before0_1_of m (dats m 0 c) (A_eq m c 1) (after_table m c) t d
theorem before_bias (c : Dev nD) (t : Fin cfg0.N) (d) : (dats m 0 c).before 2 t d = iblk m c 2 t :=
  before0_2_of m (dats m 0 c) (A_eq m c 2) (after_bias m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The body at any point: the inputs' buffers hold their blocks, the point is in exactly one of the three cases, and
    that case's triple applies; the output is live at the point, so what the body leaves there is `after`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_table, before_bias]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from by
      unfold Dat.leavesExact; rw [live_x t],
    show (dats m 0 c).leavesExact 1 t = owns (c : Thread nD τ) (st0_1 t) fullShare ((dats m 0 c).after 1 t) from by
      unfold Dat.leavesExact; rw [live_table t],
    show (dats m 0 c).leavesExact 2 t = owns (c : Thread nD τ) (st0_2 t) fullShare ((dats m 0 c).after 2 t) from by
      unfold Dat.leavesExact; rw [live_bias t],
    show (dats m 0 c).leavesExact 3 t = owns (c : Thread nD τ) (st0_3 t) fullShare ((dats m 0 c).after 3 t) from by
      unfold Dat.leavesExact; rw [live_out t],
    after_x, after_table, after_bias, after_out]
  rcases one_case t with ⟨h1, h2, h3⟩ | ⟨h1, h2, h3⟩ | ⟨h1, h2, h3⟩
  · rw [show outAt (grid0.coords t) (iblk m c 0 t) (iblk m c 1 t) (iblk m c 2 t) = outLo (iblk m c 0 t) (iblk m c 1 t) (iblk m c 2 t) from by
      unfold outAt; rw [if_pos h1]]
    iintro ⟨HΦ, Ho, ⟨%d0, H0⟩, ⟨%d1, H1⟩, ⟨%d2, H2⟩, ⟨%d3, H3⟩⟩
    iapply (sound_lo c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [show outAt (grid0.coords t) (iblk m c 0 t) (iblk m c 1 t) (iblk m c 2 t) = outHi (iblk m c 0 t) (iblk m c 1 t) (iblk m c 2 t) from by
      unfold outAt; rw [if_neg h1, if_pos h2]]
    iintro ⟨HΦ, Ho, ⟨%d0, H0⟩, ⟨%d1, H1⟩, ⟨%d2, H2⟩, ⟨%d3, H3⟩⟩
    iapply (sound_hi c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [show outAt (grid0.coords t) (iblk m c 0 t) (iblk m c 1 t) (iblk m c 2 t) = outMid (grid0.coords t) (iblk m c 0 t) (iblk m c 1 t) (iblk m c 2 t) from by
      unfold outAt; rw [if_neg h1, if_neg h2]]
    iintro ⟨HΦ, Ho, ⟨%d0, H0⟩, ⟨%d1, H1⟩, ⟨%d2, H2⟩, ⟨%d3, H3⟩⟩
    iapply (sound_mid c Set.univ (grid0.coords t) _ _ _ _ _ _ _ _ h1 h2 h3 (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the program runs to the end, faults nowhere and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Tile

end
-- ==== Proof.PayEdge.lean ====
/-
  The two clipped-tile payloads of the relative-position kernel read at an index, over the extended reals.
  In a tile wholly below (above) the band the body adds to the input tile ONE row of the table plus the bias,
  spread over the batch, the query rows and the key columns: at (n, r, s, d) the value is
  x (n, r, s, d) + (row d + bias d). The row reaches the tile through reshapes [1,128] -> [128] -> [1,1,1,128]
  and a broadcast to [2,32,128,128]; each of those reads its operand at the feature coordinate d alone.
-/
import proofs.«169746_j76501957476438_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- A [128] vector viewed [1,1,1,128] and spread over the [2,32,128,128] tile reads, at (n, r, s, d), entry d. -/
theorem spread_row_apply (v : FVec Ideal S128 .f32) (n : Fin 2) (r : Fin 32) (s : Fin 128) (d : Fin 128) :
    broadcastTo S2x32x128x128 (shapeCast S1x1x1x128 (shapeCast S1x1x1x128 v Facts₀.shapeCasts_S128_S1x1x1x128)
      Facts₀.shapeCasts_S1x1x1x128_S1x1x1x128) Facts₀.broadcasts_S1x1x1x128_S2x32x128x128 (ix4 n r s d) = v (ix1 d) := by
  refine (broadcastTo_apply _ Facts₀.broadcasts_S1x1x1x128_S2x32x128x128 (ix4 n r s d)
    (ix4 (0 : Fin 1) (0 : Fin 1) (0 : Fin 1) d) (fun a => ?_)).trans ?_
  · match a with
    | ⟨0, _⟩ => rfl
    | ⟨1, _⟩ => rfl
    | ⟨2, _⟩ => rfl
    | ⟨3, _⟩ => rfl
  · rw [shapeCast_self]
    refine shapeCast_apply v Facts₀.shapeCasts_S128_S1x1x1x128 (ix4 (0 : Fin 1) (0 : Fin 1) (0 : Fin 1) d) (ix1 d) ?_
    rw [Shape.rowMajor_val_one, Shape.rowMajor_val_four]
    show d.val = ((0 * 1 + 0) * 1 + 0) * 128 + d.val
    omega

/-- One row of the [63,128] table, loaded as [1,128] and viewed [128], reads entry (0, d) of the loaded row at d. -/
theorem row_view_apply (w : Vec Ideal S1x128 .bf16) (d : Fin 128) :
    shapeCast S128 w Facts₀.shapeCasts_S1x128_S128 (ix1 d) = w (ix2 (0 : Fin 1) d) := by
  refine shapeCast_apply w Facts₀.shapeCasts_S1x128_S128 (ix1 d) (ix2 (0 : Fin 1) d) ?_
  rw [Shape.rowMajor_val_one, Shape.rowMajor_val_two]
  show 0 * 128 + d.val = d.val
  omega

/-- The payload of a tile below the band, at an index. -/
theorem pay_lo_apply (w : Vec Ideal S1x128 .bf16) (b : Vec Ideal S128 .f32) (x : Vec Ideal S2x32x128x128 .f32)
    (n : Fin 2) (r : Fin 32) (s : Fin 128) (d : Fin 128) :
    k0_pay1 (F := Ideal) w b x (ix4 n r s d) = x (ix4 n r s d) + (w (ix2 (0 : Fin 1) d) + b (ix1 d)) := by
  unfold k0_pay1
  show x (ix4 n r s d) + broadcastTo S2x32x128x128 (shapeCast S1x1x1x128 (shapeCast S1x1x1x128
      (addf (F := Ideal) (extf (F := Ideal) .f32 (shapeCast S128 w Facts₀.shapeCasts_S1x128_S128) Facts₀.bitsLt_bf16_f32) b) Facts₀.shapeCasts_S128_S1x1x1x128)
      Facts₀.shapeCasts_S1x1x1x128_S1x1x1x128) Facts₀.broadcasts_S1x1x1x128_S2x32x128x128 (ix4 n r s d) = _
  refine congrArg (x (ix4 n r s d) + ·) ?_
  refine (spread_row_apply _ n r s d).trans ?_
  show shapeCast S128 w Facts₀.shapeCasts_S1x128_S128 (ix1 d) + b (ix1 d) = _
  exact congrArg (· + b (ix1 d)) (row_view_apply w d)

/-- The payload of a tile above the band, at an index: the same function of its loads. -/
theorem pay_hi_apply (w : Vec Ideal S1x128 .bf16) (b : Vec Ideal S128 .f32) (x : Vec Ideal S2x32x128x128 .f32)
    (n : Fin 2) (r : Fin 32) (s : Fin 128) (d : Fin 128) :
    k0_pay2 (F := Ideal) w b x (ix4 n r s d) = x (ix4 n r s d) + (w (ix2 (0 : Fin 1) d) + b (ix1 d)) :=
  pay_lo_apply w b x n r s d

end Cert.KernelIdeal.Pay

end
-- ==== Proof.Spec.lean ====
/-
  The specification both programs meet: out[n, q, k, d] = x[n, q, k, d] + (W[d, bin q k] + b[d]), where
  bin q k = clip (q - k, -31, 31) + 31 is the relative-position bin of query position q against key position k,
  a number in 0 .. 62. Written over natural numbers: the bin is 0 when q + 31 <= k (at or below the band),
  62 when k + 31 <= q (at or above it), and q + 31 - k in between. The 32-bit computation of the bin that both
  programs spell (subtract, signed maximum with -31, signed minimum with 31, add 31) is that number.
-/
import Idealize.ShloMosaic.PureOps.Ideal
import Idealize.ShloMosaic.Lib.ValueIdx

noncomputable section

namespace Cert.RelPos

open Idealize.ShloMosaic Idealize.ShloMosaic.ValueIdx

/-- The relative-position bin of query position `q` against key position `k`. -/
def bin (q k : Nat) : Nat := if q + 31 ≤ k then 0 else if k + 31 ≤ q then 62 else q + 31 - k

theorem bin_lt (q k : Nat) : bin q k < 63 := by
  unfold bin; split_ifs <;> omega

/-- The result, index by index: the input plus (the bin's column of the weight plus the bias). -/
def G (x : FVec Ideal ⟨4, ![2, 512, 512, 128]⟩ .f32) (W : FVec Ideal ⟨2, ![128, 63]⟩ .f32) (b : FVec Ideal ⟨1, ![128]⟩ .f32) :
    FVec Ideal ⟨4, ![2, 512, 512, 128]⟩ .f32 :=
  fun j => x j + (W (ix2 (j 3) ⟨bin (j 1).val (j 2).val, bin_lt _ _⟩) + b (ix1 (j 3)))

/-- The 32-bit difference of two positions below 512, read signed, is their difference. -/
theorem toInt_sub_pos (q k : Nat) (hq : q < 512) (hk : k < 512) :
    (IntOp.subi (BitVec.ofNat 32 q) (BitVec.ofNat 32 k)).toInt = (q : Int) - (k : Int) := by
  unfold IntOp.subi
  rw [BitVec.toInt_sub, BitVec.toInt_ofNat', BitVec.toInt_ofNat']
  have h1 : ((q : Int)).bmod (2 ^ 32) = q := by
    apply Int.bmod_eq_of_le <;> omega
  have h2 : ((k : Int)).bmod (2 ^ 32) = k := by
    apply Int.bmod_eq_of_le <;> omega
  rw [h1, h2]
  apply Int.bmod_eq_of_le <;> omega

/-- The signed maximum of two words is the maximum of their signed readings, -/
theorem toInt_maxsi (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

/-- and the signed minimum the minimum. -/
theorem toInt_minsi (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

/-- The clipped, shifted difference as both programs compute it on 32-bit words is the bin. -/
theorem bin_word (q k : Nat) (hq : q < 512) (hk : k < 512) :
    IntOp.addi (IntOp.minsi 31#32 (IntOp.maxsi 4294967265#32 (IntOp.subi (BitVec.ofNat 32 q) (BitVec.ofNat 32 k)))) 31#32
      = BitVec.ofNat 32 (bin q k) := by
  apply BitVec.eq_of_toInt_eq
  have hm31 : (4294967265#32 : BitVec 32).toInt = -31 := by decide
  have h31 : (31#32 : BitVec 32).toInt = 31 := by decide
  have hclip : (IntOp.minsi 31#32 (IntOp.maxsi 4294967265#32 (IntOp.subi (BitVec.ofNat 32 q) (BitVec.ofNat 32 k)))).toInt
      = min 31 (max (-31) ((q : Int) - (k : Int))) := by
    rw [toInt_minsi, toInt_maxsi, toInt_sub_pos q k hq hk, hm31, h31]
  have hb := bin_lt q k
  unfold IntOp.addi
  rw [BitVec.toInt_add, hclip, h31, BitVec.toInt_ofNat']
  have hr : ((bin q k : Nat) : Int).bmod (2 ^ 32) = (bin q k : Nat) := by
    apply Int.bmod_eq_of_le <;> omega
  rw [hr]
  have hl : (min 31 (max (-31) ((q : Int) - (k : Int))) + 31).bmod (2 ^ 32) = min 31 (max (-31) ((q : Int) - (k : Int))) + 31 := by
    apply Int.bmod_eq_of_le <;> omega
  rw [hl]
  unfold bin
  split_ifs <;> omega

end Cert.RelPos

end
-- ==== Proof.PayBand.lean ====
/-
  The band payload of the relative-position kernel read at an index, over the extended reals.
  In a tile (qi, ki) that meets the band the body builds, for local row r and column s, the bin of the pair
  (q, k) = (32 qi + r, 128 ki + s) on 32-bit words, compares it with every bin number j in 0 .. 62 to get a
  one-hot row of zeros and a single one, multiplies the [4096, 63] one-hot matrix (row 128 r + s) with the
  [63, 128] table, adds the bias, and adds the result to the input tile over both batch entries. A sum over j
  of (1 if j is the bin, else 0) times table (j, d) is table (bin, d): zero times anything is zero on the extended
  reals and adding zeros changes nothing, so no finiteness is needed. At (n, r, s, d) the value is
  x (n, r, s, d) + (table (bin q k, d) + bias d).
-/
import proofs.«169746_j76501957476438_2_alg».proof.Proof.Gen.KernelIdeal.Skeleton
import proofs.«169746_j76501957476438_2_alg».proof.Proof.Spec
import Idealize.ShloMosaic.Lib.ValueIdx
import Idealize.ShloMosaic.Lib.Pipeline.Value
import Idealize.ShloMosaic.PureOps.Ideal.Laws

noncomputable section

namespace Cert.KernelIdeal.Band

open Cert.KernelIdeal Cert.KernelIdeal.Gen Idealize.ShloMosaic Idealize.ShloMosaic.ValueIdx Cert.RelPos

/-! ## The tile's bins, on 32-bit words -/

/-- The [32, 128] vector of bins the body computes at grid coordinates `i`. -/
def tileBins (i : grid0.Coords) : IVec S32x128 32 :=
  addi (minsi (broadcast S32x128 31#32) (maxsi (broadcast S32x128 4294967265#32)
    (subi (addi (broadcast S32x128 (Scalar.muli (BitVec.ofNat 32 (i 0).val) 32#32)) (iota .tc S32x128 32 [0] Facts₀.iota_S32x128_d0_w32))
      (addi (broadcast S32x128 (Scalar.muli (BitVec.ofNat 32 (i 1).val) 128#32)) (iota .tc S32x128 32 [1] Facts₀.iota_S32x128_d1_w32)))))
    (broadcast S32x128 31#32)

/-- A tile's origin word plus a local offset word is the word of the global position. -/
theorem word_pos (a c e : Nat) :
    IntOp.addi (Scalar.muli (BitVec.ofNat 32 a) (BitVec.ofNat 32 c)) (BitVec.ofNat 32 e) = BitVec.ofNat 32 (a * c + e) := by
  unfold IntOp.addi Scalar.muli IntOp.muli
  rw [BitVec.ofNat_add, BitVec.ofNat_mul]

/-- Entry (r, s) of the tile's bins is the bin of the global positions. -/
theorem tileBins_apply (i : grid0.Coords) (r : Fin 32) (s : Fin 128) :
    tileBins i (ix2 r s) = BitVec.ofNat 32 (bin ((i 0).val * 32 + r.val) ((i 1).val * 128 + s.val)) := by
  have hq : (i 0).val < 16 := (i 0).isLt
  have hk : (i 1).val < 4 := (i 1).isLt
  have hr : r.val < 32 := r.isLt
  have hs : s.val < 128 := s.isLt
  show IntOp.addi (IntOp.minsi 31#32 (IntOp.maxsi 4294967265#32 (IntOp.subi
      (IntOp.addi (Scalar.muli (BitVec.ofNat 32 (i 0).val) 32#32) (iota .tc S32x128 32 [0] Facts₀.iota_S32x128_d0_w32 (ix2 r s)))
      (IntOp.addi (Scalar.muli (BitVec.ofNat 32 (i 1).val) 128#32) (iota .tc S32x128 32 [1] Facts₀.iota_S32x128_d1_w32 (ix2 r s)))))) 31#32 = _
  rw [iota_single_apply, iota_single_apply]
  show IntOp.addi (IntOp.minsi 31#32 (IntOp.maxsi 4294967265#32 (IntOp.subi
      (IntOp.addi (Scalar.muli (BitVec.ofNat 32 (i 0).val) (BitVec.ofNat 32 32)) (BitVec.ofNat 32 r.val))
      (IntOp.addi (Scalar.muli (BitVec.ofNat 32 (i 1).val) (BitVec.ofNat 32 128)) (BitVec.ofNat 32 s.val))))) 31#32 = _
  rw [word_pos, word_pos]
  exact bin_word _ _ (by omega) (by omega)

/-! ## One entry of the one-hot matrix -/

/-- Comparing the words of two numbers below 63 and converting the bit to a float gives 1 or 0. -/
theorem onehot_word (a j : Nat) (ha : a < 63) (hj : j < 63) :
    FloatOps.sitofp (F := Ideal) .f32 ((IntOp.cmpi .eq (BitVec.ofNat 32 a) (BitVec.ofNat 32 j)).setWidth 32)
      = if a = j then (1 : EReal) else 0 := by
  show ((((IntOp.cmpi .eq (BitVec.ofNat 32 a) (BitVec.ofNat 32 j)).setWidth 32).toInt : ℝ) : EReal) = _
  by_cases h : a = j
  · subst h
    rw [if_pos rfl]
    have e : IntOp.cmpi .eq (BitVec.ofNat 32 a) (BitVec.ofNat 32 a) = 1#1 := by simp [IntOp.cmpi]
    rw [e]
    have e1 : ((1#1 : BitVec 1).setWidth 32).toInt = 1 := by decide
    rw [e1]; simp
  · rw [if_neg h]
    have hne : BitVec.ofNat 32 a ≠ BitVec.ofNat 32 j := by
      intro e; apply h
      have e' := congrArg BitVec.toNat e
      rw [BitVec.toNat_ofNat, BitVec.toNat_ofNat] at e'
      omega
    have e : IntOp.cmpi .eq (BitVec.ofNat 32 a) (BitVec.ofNat 32 j) = 0#1 := by
      show BitVec.ofBool (BitVec.ofNat 32 a == BitVec.ofNat 32 j) = 0#1
      rw [show (BitVec.ofNat 32 a == BitVec.ofNat 32 j) = false from beq_eq_false_iff_ne.mpr hne]
      rfl
    rw [e]
    have e0 : ((0#1 : BitVec 1).setWidth 32).toInt = 0 := by decide
    rw [e0]; simp

/-- The comparison of the tile's bins, spread along a third axis, with the bin numbers along it: the float one-hot
    of the tile, as a [32, 128, 63] array. -/
def oneHot (i : grid0.Coords) : FVec Ideal S32x128x63 .f32 :=
  sitofp (F := Ideal) .f32 (extui 32 (cmpi .eq
    (broadcastTo S32x128x63 (shapeCast S32x128x1 (tileBins i) Facts₀.shapeCasts_S32x128_S32x128x1) Facts₀.broadcasts_S32x128x1_S32x128x63)
    (iota .tc S32x128x63 32 [2] Facts₀.iota_S32x128x63_d2_w32)) Facts₀.natLt_1_32)

/-- Entry (r, s, j) of the one-hot is 1 when j is the bin of the pair, else 0. -/
theorem oneHot_apply (i : grid0.Coords) (r : Fin 32) (s : Fin 128) (j : Fin 63) :
    oneHot i (ix3 r s j) = if bin ((i 0).val * 32 + r.val) ((i 1).val * 128 + s.val) = j.val then (1 : EReal) else 0 := by
  have hB : broadcastTo S32x128x63 (shapeCast S32x128x1 (tileBins i) Facts₀.shapeCasts_S32x128_S32x128x1)
      Facts₀.broadcasts_S32x128x1_S32x128x63 (ix3 r s j) = tileBins i (ix2 r s) := by
    refine (broadcastTo_apply _ Facts₀.broadcasts_S32x128x1_S32x128x63 (ix3 r s j) (ix3 r s (0 : Fin 1)) (fun a => ?_)).trans ?_
    · match a with
      | ⟨0, _⟩ => rfl
      | ⟨1, _⟩ => rfl
      | ⟨2, _⟩ => rfl
    · refine shapeCast_apply (tileBins i) Facts₀.shapeCasts_S32x128_S32x128x1 (ix3 r s (0 : Fin 1)) (ix2 r s) ?_
      rw [Shape.rowMajor_val_two, Shape.rowMajor_val_three]
      show r.val * 128 + s.val = (r.val * 128 + s.val) * 1 + 0
      omega
  show FloatOps.sitofp (F := Ideal) .f32 ((IntOp.cmpi .eq
      (broadcastTo S32x128x63 (shapeCast S32x128x1 (tileBins i) Facts₀.shapeCasts_S32x128_S32x128x1) Facts₀.broadcasts_S32x128x1_S32x128x63 (ix3 r s j))
      (iota .tc S32x128x63 32 [2] Facts₀.iota_S32x128x63_d2_w32 (ix3 r s j))).setWidth 32) = _
  rw [hB, iota_single_apply, tileBins_apply]
  exact onehot_word _ _ (bin_lt _ _) j.isLt

/-- The one-hot flattened to [4096, 63]: row p is the pair (p / 128, p % 128). -/
theorem oneHot_flat_apply (i : grid0.Coords) (p : Fin 4096) (j : Fin 63) :
    shapeCast S4096x63 (truncf (F := Ideal) .bf16 (oneHot i) Facts₀.bitsLt_bf16_f32) Facts₀.shapeCasts_S32x128x63_S4096x63 (ix2 p j)
      = if bin ((i 0).val * 32 + p.val / 128) ((i 1).val * 128 + p.val % 128) = j.val then (1 : EReal) else 0 := by
  have hp : p.val < 4096 := p.isLt
  refine (shapeCast_apply _ Facts₀.shapeCasts_S32x128x63_S4096x63 (ix2 p j)
    (ix3 (⟨p.val / 128, by omega⟩ : Fin 32) (⟨p.val % 128, by omega⟩ : Fin 128) j) ?_).trans ?_
  · rw [Shape.rowMajor_val_two, Shape.rowMajor_val_three]
    show (p.val / 128 * 128 + p.val % 128) * 63 + j.val = p.val * 63 + j.val
    omega
  · exact oneHot_apply i _ _ j

/-! ## The product with the table -/

abbrev DD : DotDims S4096x63 S63x128 S4096x128 := dot_S4096x63_S63x128_S4096x128_1_0_0_1_n_n

/-- At output (p, d) and contraction position c the product reads the left operand at (p, c), -/
theorem lhs_at (p : Fin 4096) (d : Fin 128) (c : Fin 63) :
    DD.lhsIdx (ix2 p d) ((contrEquiv1 DD 63 rfl rfl).symm c) = ix2 p c := by
  funext a
  apply Fin.ext
  match a with
  | ⟨0, _⟩ =>
    simp [DotDims.lhsIdx, dot_S4096x63_S63x128_S4096x128_1_0_0_1_n_n]
    rfl
  | ⟨1, _⟩ =>
    exact (DotDims.lhsIdx_val_of_single DD (cl := (1 : Fin 2)) rfl (ix2 p d) _).trans (contrEquiv1_symm_val DD 63 rfl rfl c)

/-- and the right operand at (c, d). -/
theorem rhs_at (p : Fin 4096) (d : Fin 128) (c : Fin 63) :
    DD.rhsIdx (ix2 p d) ((contrEquiv1 DD 63 rfl rfl).symm c) = ix2 c d := by
  funext a
  apply Fin.ext
  match a with
  | ⟨0, _⟩ =>
    exact (DotDims.rhsIdx_val_of_single DD (cr := (0 : Fin 2)) rfl (ix2 p d) _).trans (contrEquiv1_symm_val DD 63 rfl rfl c)
  | ⟨1, _⟩ =>
    simp [DotDims.rhsIdx, dot_S4096x63_S63x128_S4096x128_1_0_0_1_n_n]
    rfl

/-- The matrix product into a zero accumulator, at (p, d), is the sum over the 63 bins of the products. -/
theorem product_apply (L : FVec Ideal S4096x63 .bf16) (R : FVec Ideal S63x128 .bf16) (p : Fin 4096) (d : Fin 128) :
    matmul (F := Ideal) DD none L R (constant (F := Ideal) S4096x128 .f32 0x00000000#32) (ix2 p d)
      = ∑ c : Fin 63, L (ix2 p c) * R (ix2 c d) := by
  show FloatOps.matmul DD none L R (constant S4096x128 .f32 0x00000000#32) (ix2 p d) = _
  rw [Ideal.matmul_constant_zero_apply]
  rw [← Equiv.sum_comp (contrEquiv1 DD 63 rfl rfl).symm]
  refine Finset.sum_congr rfl fun c _ => ?_
  rw [lhs_at, rhs_at]

/-- A sum against a one-hot picks one term: zero times anything is zero, and adding zeros changes nothing. -/
theorem pick_row (f : Fin 63 → EReal) (a : Nat) (ha : a < 63) :
    ∑ c : Fin 63, (if a = c.val then (1 : EReal) else 0) * f c = f ⟨a, ha⟩ := by
  rw [Finset.sum_eq_single (⟨a, ha⟩ : Fin 63)]
  · rw [if_pos rfl, one_mul]
  · intro c _ hc
    rw [if_neg (fun h => hc (Fin.ext h.symm)), zero_mul]
  · intro h; exact absurd (Finset.mem_univ _) h

/-- The one-hot product with the table, at row p and feature d, is the table's row of the pair's bin. -/
theorem band_row_apply (i : grid0.Coords) (w : Vec Ideal S63x128 .bf16) (p : Fin 4096) (d : Fin 128) :
    matmul (F := Ideal) DD none
        (shapeCast S4096x63 (truncf (F := Ideal) .bf16 (oneHot i) Facts₀.bitsLt_bf16_f32) Facts₀.shapeCasts_S32x128x63_S4096x63)
        (shapeCast S63x128 w Facts₀.shapeCasts_S63x128_S63x128 : FVec Ideal S63x128 .bf16)
        (constant (F := Ideal) S4096x128 .f32 0x00000000#32) (ix2 p d)
      = w (ix2 ⟨bin ((i 0).val * 32 + p.val / 128) ((i 1).val * 128 + p.val % 128), bin_lt _ _⟩ d) := by
  rw [product_apply, shapeCast_self]
  have e : ∀ c : Fin 63,
      shapeCast S4096x63 (truncf (F := Ideal) .bf16 (oneHot i) Facts₀.bitsLt_bf16_f32) Facts₀.shapeCasts_S32x128x63_S4096x63 (ix2 p c) * w (ix2 c d)
        = (if bin ((i 0).val * 32 + p.val / 128) ((i 1).val * 128 + p.val % 128) = c.val then (1 : EReal) else 0) * w (ix2 c d) :=
    fun c => by rw [oneHot_flat_apply]
  rw [Finset.sum_congr rfl fun c _ => e c]
  exact pick_row (fun c => w (ix2 c d)) _ (bin_lt _ _)

/-! ## The layout around the product, and the payload -/

theorem flat_lt (r : Fin 32) (s : Fin 128) : r.val * 128 + s.val < 4096 := by
  have := r.isLt; have := s.isLt; omega

/-- The bias, viewed [1,1,128] and spread over [32,128,128], reads entry d at (r, s, d). -/
theorem spread_bias_apply (b : FVec Ideal S128 .f32) (r : Fin 32) (s : Fin 128) (d : Fin 128) :
    broadcastTo S32x128x128 (shapeCast S1x1x128 b Facts₀.shapeCasts_S128_S1x1x128) Facts₀.broadcasts_S1x1x128_S32x128x128 (ix3 r s d)
      = b (ix1 d) := by
  refine (broadcastTo_apply _ Facts₀.broadcasts_S1x1x128_S32x128x128 (ix3 r s d) (ix3 (0 : Fin 1) (0 : Fin 1) d) (fun a => ?_)).trans ?_
  · match a with
    | ⟨0, _⟩ => rfl
    | ⟨1, _⟩ => rfl
    | ⟨2, _⟩ => rfl
  · refine shapeCast_apply b Facts₀.shapeCasts_S128_S1x1x128 (ix3 (0 : Fin 1) (0 : Fin 1) d) (ix1 d) ?_
    rw [Shape.rowMajor_val_one, Shape.rowMajor_val_three]
    show d.val = (0 * 1 + 0) * 128 + d.val
    omega

/-- A [32,128,128] array viewed [1,32,128,128] and spread over both batch entries reads (r, s, d) at (n, r, s, d). -/
theorem spread_batch_apply (v : FVec Ideal S32x128x128 .f32) (n : Fin 2) (r : Fin 32) (s : Fin 128) (d : Fin 128) :
    broadcastTo S2x32x128x128 (shapeCast S1x32x128x128 (shapeCast S1x32x128x128 v Facts₀.shapeCasts_S32x128x128_S1x32x128x128)
      Facts₀.shapeCasts_S1x32x128x128_S1x32x128x128) Facts₀.broadcasts_S1x32x128x128_S2x32x128x128 (ix4 n r s d) = v (ix3 r s d) := by
  refine (broadcastTo_apply _ Facts₀.broadcasts_S1x32x128x128_S2x32x128x128 (ix4 n r s d) (ix4 (0 : Fin 1) r s d) (fun a => ?_)).trans ?_
  · match a with
    | ⟨0, _⟩ => rfl
    | ⟨1, _⟩ => rfl
    | ⟨2, _⟩ => rfl
    | ⟨3, _⟩ => rfl
  · rw [shapeCast_self]
    refine shapeCast_apply v Facts₀.shapeCasts_S32x128x128_S1x32x128x128 (ix4 (0 : Fin 1) r s d) (ix3 r s d) ?_
    rw [Shape.rowMajor_val_three, Shape.rowMajor_val_four]
    show (r.val * 128 + s.val) * 128 + d.val = ((0 * 32 + r.val) * 128 + s.val) * 128 + d.val
    omega

/-- The [4096,128] product viewed [32,128,128] reads row 128 r + s at (r, s, d). -/
theorem unflatten_apply (M : FVec Ideal S4096x128 .f32) (r : Fin 32) (s : Fin 128) (d : Fin 128) :
    shapeCast S32x128x128 M Facts₀.shapeCasts_S4096x128_S32x128x128 (ix3 r s d) = M (ix2 ⟨r.val * 128 + s.val, flat_lt r s⟩ d) := by
  refine shapeCast_apply M Facts₀.shapeCasts_S4096x128_S32x128x128 (ix3 r s d) (ix2 ⟨r.val * 128 + s.val, flat_lt r s⟩ d) ?_
  rw [Shape.rowMajor_val_two, Shape.rowMajor_val_three]
  rfl

/-- The payload of a tile that meets the band, at an index. -/
theorem pay_mid_apply (i : grid0.Coords) (w : Vec Ideal S63x128 .bf16) (b : Vec Ideal S128 .f32) (x : Vec Ideal S2x32x128x128 .f32)
    (n : Fin 2) (r : Fin 32) (s : Fin 128) (d : Fin 128) :
    k0_pay3 (F := Ideal) i w b x (ix4 n r s d)
      = x (ix4 n r s d) + (w (ix2 ⟨bin ((i 0).val * 32 + r.val) ((i 1).val * 128 + s.val), bin_lt _ _⟩ d) + b (ix1 d)) := by
  have hr : r.val < 32 := r.isLt
  have hs : s.val < 128 := s.isLt
  unfold k0_pay3
  show x (ix4 n r s d) + broadcastTo S2x32x128x128 (shapeCast S1x32x128x128 (shapeCast S1x32x128x128
      (addf (F := Ideal)
        (shapeCast S32x128x128 (matmul (F := Ideal) DD none
            (shapeCast S4096x63 (truncf (F := Ideal) .bf16 (oneHot i) Facts₀.bitsLt_bf16_f32) Facts₀.shapeCasts_S32x128x63_S4096x63)
            (shapeCast S63x128 w Facts₀.shapeCasts_S63x128_S63x128 : FVec Ideal S63x128 .bf16)
            (constant (F := Ideal) S4096x128 .f32 0x00000000#32)) Facts₀.shapeCasts_S4096x128_S32x128x128)
        (broadcastTo S32x128x128 (shapeCast S1x1x128 b Facts₀.shapeCasts_S128_S1x1x128) Facts₀.broadcasts_S1x1x128_S32x128x128))
      Facts₀.shapeCasts_S32x128x128_S1x32x128x128) Facts₀.shapeCasts_S1x32x128x128_S1x32x128x128)
      Facts₀.broadcasts_S1x32x128x128_S2x32x128x128 (ix4 n r s d) = _
  refine congrArg (x (ix4 n r s d) + ·) ?_
  refine (spread_batch_apply _ n r s d).trans ?_
  show shapeCast S32x128x128 (matmul (F := Ideal) DD none
            (shapeCast S4096x63 (truncf (F := Ideal) .bf16 (oneHot i) Facts₀.bitsLt_bf16_f32) Facts₀.shapeCasts_S32x128x63_S4096x63)
            (shapeCast S63x128 w Facts₀.shapeCasts_S63x128_S63x128 : FVec Ideal S63x128 .bf16)
            (constant (F := Ideal) S4096x128 .f32 0x00000000#32)) Facts₀.shapeCasts_S4096x128_S32x128x128 (ix3 r s d)
        + broadcastTo S32x128x128 (shapeCast S1x1x128 b Facts₀.shapeCasts_S128_S1x1x128) Facts₀.broadcasts_S1x1x128_S32x128x128 (ix3 r s d) = _
  rw [spread_bias_apply, unflatten_apply, band_row_apply]
  have h1 : (r.val * 128 + s.val) / 128 = r.val := by omega
  have h2 : (r.val * 128 + s.val) % 128 = s.val := by omega
  simp only [h1, h2]

end Cert.KernelIdeal.Band

end
-- ==== Proof.KernelValue.lean ====
/-
  The relative-position kernel's result array, as one function of the argument arrays.

  Grid point t has coordinates (qi, ki). Its output block is the [2, 32, 128, 128] tile at block index
  (0, qi, ki, 0) of the [2, 512, 512, 128] result: local (n, r, s, d) is global (n, 32 qi + r, 128 ki + s, d); the
  input tile is the same block of x; the table and the bias are whole. The table the region finds is the transpose
  of the weight (the change of float format is the identity over the extended reals), so table (j, d) is W (d, j).

  What point t writes back is the block of the specification there. In a tile that meets the band this is the band
  payload read at an index. In a tile wholly below the band the body adds table row 0, and every pair (q, k) of the
  tile has q + 31 <= k (from 32 qi + 62 <= 128 ki, the condition's closed form over the grid), so its bin is 0; in a
  tile wholly above it adds row 62, and every pair has k + 31 <= q (from 128 ki + 158 <= 32 qi), so its bin is 62.
  The 64 blocks tile the result (index (n, q, k, d) lies in the block of (q / 32, k / 128)), every point writes its
  block back, so after the run the result array IS the specification.
-/
import proofs.«169746_j76501957476438_2_alg».proof.Proof.RunIdeal
import proofs.«169746_j76501957476438_2_alg».proof.Proof.PayEdge
import proofs.«169746_j76501957476438_2_alg».proof.Proof.PayBand
import proofs.«169746_j76501957476438_2_alg».proof.Proof.Spec
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Tile Cert.KernelIdeal.Pay Cert.KernelIdeal.Band Cert.RelPos
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The zero offsets, however spelt -/

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The value of a tile, over variables -/

/-- Row 0 of a loaded table, at feature d. -/
theorem row_lo_apply (wb : Vec Ideal S63x128 .bf16) (d : Fin 128) :
    View.ld wb rRowLo (ix2 (0 : Fin 1) d) = wb (ix2 (0 : Fin 63) d) := by
  show wb (rRowLo.emb (ix2 (0 : Fin 1) d)) = _
  refine congrArg wb (funext fun a => Fin.ext ?_)
  match a with
  | ⟨0, _⟩ => rfl
  | ⟨1, _⟩ => show 0 + 1 * d.val = d.val; omega

/-- Row 62 of a loaded table, at feature d. -/
theorem row_hi_apply (wb : Vec Ideal S63x128 .bf16) (d : Fin 128) :
    View.ld wb rRowHi (ix2 (0 : Fin 1) d) = wb (ix2 (62 : Fin 63) d) := by
  show wb (rRowHi.emb (ix2 (0 : Fin 1) d)) = _
  refine congrArg wb (funext fun a => Fin.ext ?_)
  match a with
  | ⟨0, _⟩ => rfl
  | ⟨1, _⟩ => show 0 + 1 * d.val = d.val; omega

/-- WHAT A POINT LEAVES IN ITS TILE is the specification's block: for grid coordinates `i` whose two clipped
    conditions have their closed forms, blocks `xb`, `wb`, `bb` that read the arrays `X`, `W`, `B` where the tile
    stands (`Q r`, `K s` the global positions of local row r and column s), the tile's buffer after the body at
    (n, r, s, d) is the specification at (n, Q r, K s, d). -/
theorem tile_value_of (i : grid0.Coords)
    (hlo : k0_cond1 i = 1#1 → (i 0).val * 32 + 62 ≤ (i 1).val * 128)
    (hhi : k0_cond2 i = 1#1 → (i 1).val * 128 + 158 ≤ (i 0).val * 32)
    (xb : Vec Ideal S2x32x128x128 .f32) (wb : Vec Ideal S63x128 .bf16) (bb : Vec Ideal S128 .f32)
    (X : FVec Ideal ⟨4, ![2, 512, 512, 128]⟩ .f32) (W : FVec Ideal ⟨2, ![128, 63]⟩ .f32) (B : FVec Ideal ⟨1, ![128]⟩ .f32)
    (Q : Fin 32 → Fin 512) (K : Fin 128 → Fin 512)
    (hQ : ∀ r, (Q r).val = (i 0).val * 32 + r.val) (hK : ∀ s, (K s).val = (i 1).val * 128 + s.val)
    (hx : ∀ (n : Fin 2) (r : Fin 32) (s : Fin 128) (d : Fin 128), xb (ix4 n r s d) = X (ix4 n (Q r) (K s) d))
    (hw : ∀ (j : Fin 63) (d : Fin 128), wb (ix2 j d) = W (ix2 d j))
    (hb : ∀ d : Fin 128, bb (ix1 d) = B (ix1 d))
    (n : Fin 2) (r : Fin 32) (s : Fin 128) (d : Fin 128) :
    outAt i xb wb bb (ix4 n r s d) = G X W B (ix4 n (Q r) (K s) d) := by
  have hr : r.val < 32 := r.isLt
  have hs : s.val < 128 := s.isLt
  show _ = X (ix4 n (Q r) (K s) d) + (W (ix2 d ⟨bin (Q r).val (K s).val, bin_lt _ _⟩) + B (ix1 d))
  unfold outAt
  by_cases h1 : k0_cond1 i = 1#1
  · rw [if_pos h1]
    unfold outLo
    rw [View.canon_unit_zero hz4, pay_lo_apply, View.ld_unit_zero (S := S2x32x128x128) hz4, View.ld_unit_zero (S := S128) hz1,
      row_lo_apply, hx, hw, hb]
    have hbin : bin (Q r).val (K s).val = 0 := by
      unfold bin
      rw [if_pos (by rw [hQ, hK]; have := hlo h1; omega)]
    exact congrArg (fun z => X (ix4 n (Q r) (K s) d) + (W (ix2 d z) + B (ix1 d))) (Fin.ext hbin.symm)
  · rw [if_neg h1]
    by_cases h2 : k0_cond2 i = 1#1
    · rw [if_pos h2]
      unfold outHi
      rw [View.canon_unit_zero hz4, pay_hi_apply, View.ld_unit_zero (S := S2x32x128x128) hz4, View.ld_unit_zero (S := S128) hz1,
        row_hi_apply, hx, hw, hb]
      have hbin : bin (Q r).val (K s).val = 62 := by
        unfold bin
        rw [if_neg (by rw [hQ, hK]; have := hhi h2; omega), if_pos (by rw [hQ, hK]; have := hhi h2; omega)]
      exact congrArg (fun z => X (ix4 n (Q r) (K s) d) + (W (ix2 d z) + B (ix1 d))) (Fin.ext hbin.symm)
    · rw [if_neg h2]
      unfold outMid
      rw [View.canon_unit_zero hz4, pay_mid_apply, View.ld_unit_zero (S := S2x32x128x128) hz4, View.ld_unit_zero (S := S128) hz1,
        View.ld_unit_zero (S := S63x128) hz2, hx, hw, hb]
      exact congrArg (fun z => X (ix4 n (Q r) (K s) d) + (W (ix2 d z) + B (ix1 d))) (Fin.ext (by rw [hQ, hK]))

/-! ## The table the region finds -/

/-- Before the region the host transposes the weight and changes its float format. -/
theorem table_eq (c : Dev nD) :
    (V m c main_v1 : S63x128.Idx → EReal)
      = truncf (F := Ideal) .bf16 (transpose S63x128 [1, 0] (m ((c : Thread nD τ).loc main_arg2)) Facts₀.transposes_S128x63_S63x128_1_0)
          Facts₀.bitsLt_bf16_f32 := by
  dsimp only [Gen.V, Gen.hostOps0]; after_results

/-- So table (j, d) is W (d, j). -/
theorem table_apply (c : Dev nD) (j : Fin 63) (d : Fin 128) :
    V m c main_v1 (ix2 j d) = m ((c : Thread nD τ).loc main_arg2) (ix2 d j) :=
  (congrFun (table_eq m c) (ix2 j d)).trans
    (transpose_apply [1, 0] (m ((c : Thread nD τ).loc main_arg2)) Facts₀.transposes_S128x63_S63x128_1_0 (ix2 j d) (ix2 d j)
      (fun b => match b with
        | ⟨0, _⟩ => rfl
        | ⟨1, _⟩ => rfl))

/-! ## The printed index maps and conditions, decided over the grid -/

/-- The output and the input tile stand at block (0, qi, ki, 0); the table and the bias at block 0. -/
theorem idx_facts : ∀ t : Fin cfg0.N,
    win0_3.index t (0 : Fin 4) = 0 ∧ win0_3.index t (1 : Fin 4) = (grid0.coords t 0).val
    ∧ win0_3.index t (2 : Fin 4) = (grid0.coords t 1).val ∧ win0_3.index t (3 : Fin 4) = 0
    ∧ win0_0.index t (0 : Fin 4) = 0 ∧ win0_0.index t (1 : Fin 4) = (grid0.coords t 0).val
    ∧ win0_0.index t (2 : Fin 4) = (grid0.coords t 1).val ∧ win0_0.index t (3 : Fin 4) = 0
    ∧ win0_1.index t (0 : Fin 2) = 0 ∧ win0_1.index t (1 : Fin 2) = 0
    ∧ win0_2.index t (0 : Fin 1) = 0 :=
  (by decide +kernel : ∀ t : Fin grid0.N, _)

/-- The below-the-band condition in closed form, -/
theorem lo_closed : ∀ t : Fin cfg0.N, k0_cond1 (grid0.coords t) = 1#1 →
    (grid0.coords t 0).val * 32 + 62 ≤ (grid0.coords t 1).val * 128 :=
  (by decide +kernel : ∀ t : Fin grid0.N, _)

/-- and the above-the-band one. -/
theorem hi_closed : ∀ t : Fin cfg0.N, k0_cond2 (grid0.coords t) = 1#1 →
    (grid0.coords t 1).val * 128 + 158 ≤ (grid0.coords t 0).val * 32 :=
  (by decide +kernel : ∀ t : Fin grid0.N, _)

/-- Every block of the result is some point's. -/
theorem idx_onto : ∀ (q0 : Fin 16) (q1 : Fin 4), ∃ t : Fin cfg0.N, win0_3.index t = ![0, q0.val, q1.val, 0] :=
  (by decide +kernel : ∀ (q0 : Fin 16) (q1 : Fin 4), ∃ t : Fin grid0.N, win0_3.index t = ![0, q0.val, q1.val, 0])

/-! ## A point's global positions, and its blocks read at an index -/

/-- The global query position of local row r at point t, -/
def qAt (t : Fin cfg0.N) (r : Fin 32) : Fin 512 :=
  ⟨(grid0.coords t 0).val * 32 + r.val, by
    have h : (grid0.coords t 0).val < 16 := (grid0.coords t 0).isLt
    have := r.isLt; omega⟩
/-- and the global key position of local column s. -/
def kAt (t : Fin cfg0.N) (s : Fin 128) : Fin 512 :=
  ⟨(grid0.coords t 1).val * 128 + s.val, by
    have h : (grid0.coords t 1).val < 4 := (grid0.coords t 1).isLt
    have := s.isLt; omega⟩

/-- Local (n, r, s, d) of point t's output block is global (n, q, k, d). -/
theorem out_emb (t : Fin cfg0.N) (n : Fin 2) (r : Fin 32) (s : Fin 128) (d : Fin 128) :
    ((cfg0.win 3).blk t).view.emb (ix4 n r s d) = ix4 n (qAt t r) (kAt t s) d := by
  obtain ⟨e0, e1, e2, e3, -⟩ := idx_facts t
  funext a; apply Fin.ext
  match a with
  | ⟨0, _⟩ => show win0_3.index t (0 : Fin 4) * 2 + 1 * n.val = n.val; omega
  | ⟨1, _⟩ => show win0_3.index t (1 : Fin 4) * 32 + 1 * r.val = (grid0.coords t 0).val * 32 + r.val; omega
  | ⟨2, _⟩ => show win0_3.index t (2 : Fin 4) * 128 + 1 * s.val = (grid0.coords t 1).val * 128 + s.val; omega
  | ⟨3, _⟩ => show win0_3.index t (3 : Fin 4) * 128 + 1 * d.val = d.val; omega

/-- The input tile at point t reads x at the same global index. -/
theorem xblk_apply (c : Dev nD) (t : Fin cfg0.N) (n : Fin 2) (r : Fin 32) (s : Fin 128) (d : Fin 128) :
    iblk m c 0 t (ix4 n r s d) = m ((c : Thread nD τ).loc main_arg0) (ix4 n (qAt t r) (kAt t s) d) := by
  obtain ⟨-, -, -, -, f0, f1, f2, f3, -⟩ := idx_facts t
  show V m c main_arg0 (((cfg0.win 0).blk t).view.emb (ix4 n r s d)) = _
  rw [V_main_arg0]
  refine congrArg (m ((c : Thread nD τ).loc main_arg0)) (funext fun a => Fin.ext ?_)
  match a with
  | ⟨0, _⟩ => show win0_0.index t (0 : Fin 4) * 2 + 1 * n.val = n.val; omega
  | ⟨1, _⟩ => show win0_0.index t (1 : Fin 4) * 32 + 1 * r.val = (grid0.coords t 0).val * 32 + r.val; omega
  | ⟨2, _⟩ => show win0_0.index t (2 : Fin 4) * 128 + 1 * s.val = (grid0.coords t 1).val * 128 + s.val; omega
  | ⟨3, _⟩ => show win0_0.index t (3 : Fin 4) * 128 + 1 * d.val = d.val; omega

/-- The table block at any point is the whole table: entry (j, d) is W (d, j). -/
theorem wblk_apply (c : Dev nD) (t : Fin cfg0.N) (j : Fin 63) (d : Fin 128) :
    iblk m c 1 t (ix2 j d) = m ((c : Thread nD τ).loc main_arg2) (ix2 d j) := by
  obtain ⟨-, -, -, -, -, -, -, -, g0, g1, -⟩ := idx_facts t
  show V m c main_v1 (((cfg0.win 1).blk t).view.emb (ix2 j d)) = _
  refine (congrArg (V m c main_v1) (funext fun a => Fin.ext ?_)).trans (table_apply m c j d)
  match a with
  | ⟨0, _⟩ => show win0_1.index t (0 : Fin 2) * 63 + 1 * j.val = j.val; omega
  | ⟨1, _⟩ => show win0_1.index t (1 : Fin 2) * 128 + 1 * d.val = d.val; omega

/-- The bias block at any point is the whole bias. -/
theorem bblk_apply (c : Dev nD) (t : Fin cfg0.N) (d : Fin 128) :
    iblk m c 2 t (ix1 d) = m ((c : Thread nD τ).loc main_arg3) (ix1 d) := by
  obtain ⟨-, -, -, -, -, -, -, -, -, -, h0⟩ := idx_facts t
  show V m c main_arg3 (((cfg0.win 2).blk t).view.emb (ix1 d)) = _
  rw [V_main_arg3]
  refine congrArg (m ((c : Thread nD τ).loc main_arg3)) (funext fun a => Fin.ext ?_)
  match a with
  | ⟨0, _⟩ => show win0_2.index t (0 : Fin 1) * 128 + 1 * d.val = d.val; omega

/-! ## From blocks to the array -/

/-- The specification of the argument arrays as launched. -/
abbrev spec (c : Dev nD) : S2x512x512x128.Idx → EReal :=
  G (m ((c : Thread nD τ).loc main_arg0)) (m ((c : Thread nD τ).loc main_arg2)) (m ((c : Thread nD τ).loc main_arg3))

/-- WHAT POINT t WRITES BACK is block t of the specification. -/
theorem flushed_eq (c : Dev nD) (t : Fin cfg0.N) :
    (dats m 0 c).flushed 3 t = ((cfg0.win 3).blk t).view.read (Elt Ideal) (spec m c) := by
  show (cfg0.win 3).cut (grid0.coords t) ((dats m 0 c).after 3 t) = _
  rw [after_out]
  funext y
  obtain ⟨n, r, s, d, rfl⟩ : ∃ (n : Fin 2) (r : Fin 32) (s : Fin 128) (d : Fin 128), y = ix4 n r s d :=
    ⟨y 0, y 1, y 2, y 3, eq_ix4 y⟩
  show outAt (grid0.coords t) (iblk m c 0 t) (iblk m c 1 t) (iblk m c 2 t) (ix4 n r s d)
    = spec m c (((cfg0.win 3).blk t).view.emb (ix4 n r s d))
  rw [out_emb]
  exact tile_value_of (grid0.coords t) (lo_closed t) (hi_closed t) (iblk m c 0 t) (iblk m c 1 t) (iblk m c 2 t)
    (m ((c : Thread nD τ).loc main_arg0)) (m ((c : Thread nD τ).loc main_arg2)) (m ((c : Thread nD τ).loc main_arg3))
    (qAt t) (kAt t) (fun _ => rfl) (fun _ => rfl) (xblk_apply m c t) (wblk_apply m c t) (bblk_apply m c t) n r s d

/-- An index of the result is in point t's block iff each coordinate is in the block's range on its axis. -/
theorem mem_blk (t : Fin cfg0.N) (i : S2x512x512x128.Idx) :
    i ∈ ((cfg0.win 3).blk t).view.set ↔ ∀ a : Fin 4, win0_3.index t a * S2x32x128x128.size a ≤ (i a).val
      ∧ (i a).val < win0_3.index t a * S2x32x128x128.size a + S2x32x128x128.size a := by
  show i ∈ ((View.whole main_v2).slice (win0_3.rect t)).set ↔ _
  rw [View.set_slice_whole, Rect.mem_set_unit]
  exact Iff.rfl

/-- Every index of the result is in the block of the point (q / 32, k / 128), which writes it back. -/
theorem cover (i : S2x512x512x128.Idx) :
    ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 512 := (i 2).isLt
  have hi3 : (i 3).val < 128 := (i 3).isLt
  obtain ⟨t, ht⟩ := idx_onto ⟨(i 1).val / 32, by omega⟩ ⟨(i 2).val / 128, by omega⟩
  have q0 : win0_3.index t (0 : Fin 4) = 0 := congrFun ht 0
  have q1 : win0_3.index t (1 : Fin 4) = (i 1).val / 32 := congrFun ht 1
  have q2 : win0_3.index t (2 : Fin 4) = (i 2).val / 128 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 2 ≤ (i 0).val ∧ (i 0).val < win0_3.index t (0 : Fin 4) * 2 + 2; omega
  | ⟨1, _⟩ => show win0_3.index t (1 : Fin 4) * 32 ≤ (i 1).val ∧ (i 1).val < win0_3.index t (1 : Fin 4) * 32 + 32; omega
  | ⟨2, _⟩ => show win0_3.index t (2 : Fin 4) * 128 ≤ (i 2).val ∧ (i 2).val < win0_3.index t (2 : Fin 4) * 128 + 128; omega
  | ⟨3, _⟩ => show win0_3.index t (3 : Fin 4) * 128 ≤ (i 3).val ∧ (i 3).val < win0_3.index t (3 : Fin 4) * 128 + 128; omega

/-- THE RESULT ARRAY after the run is the specification. -/
theorem final (c : Dev nD) : (dats m 0 c).arrAt 3 cfg0.N = spec m c :=
  (dats m 0 c).arrAt_eq_of_cover 3 (spec m c) (fun t _ => flushed_eq m c t) cover

/-! ## The run, read -/

/-- Every weakly fair execution of the idealized kernel terminates with the result array at the specification of
    the arguments as launched, and the arguments unchanged. -/
theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c)))⟩)
    (run_main m ρ)

end Cert.KernelIdeal.Whole

end
-- ==== Proof.RefValue.lean ====
/-
  The reference side: the array the jnp program computes is the specification `G`.

  The program forms the table of bins on 32-bit integers (positions 0 .. 511 along rows and along columns, their
  difference, clipped to -31 .. 31 and shifted by 31), gathers one row of the transposed weight per (query, key)
  pair, adds the bias to every gathered row, and adds the result to the input, the same for both batch entries.
  Read at an index (n, q, k, d):

    * the integer chain at (q, k) is the word of `bin q k` (Spec's `bin_word`); the renormalisation of a negative
      index that follows it never fires, a bin being nonnegative;
    * the gather at (q, k, d) reads the transposed weight at row `min (start index) 62` and column d, where the
      start index is the signed reading of the word at (q, k, 0); a bin's word reads back as the bin, which is at
      most 62, so the row is `bin q k` and the element is W[d, bin q k];
    * the bias broadcast at (q, k, d) is b[d];
    * over the extended reals the two additions are exact, so the element is x[n,q,k,d] + (W[d, bin q k] + b[d]).

  The per-operation readings `val_main_vN_apply` come from the generated read module; the one operation it does not
  read, the gather, is read here (`gather_row_apply`).
-/
import proofs.«169746_j76501957476438_2_alg».proof.Proof.Gen.ReferenceIdeal.Read
import proofs.«169746_j76501957476438_2_alg».proof.Proof.Spec
import Idealize.ShloMosaic.Lib.ValueIdx
import Idealize.ShloMosaic.Lib.Pipeline.Value
import Idealize.ShloMosaic.PureOps.Ideal

noncomputable section

namespace Cert.ReferenceIdeal.RefValue

open Cert.ReferenceIdeal Cert.ReferenceIdeal.Gen Cert.ReferenceIdeal.Read Cert.RelPos
open Idealize.ShloMosaic Idealize.ShloMosaic.ValueIdx

/-! ## The gather of rows of a `[63, 128]` operand at `[512, 512, 1]` start indices, read at an index

Offset axis 2 of the result runs along operand axis 1 (slice size 128, the whole row); operand axis 0 is collapsed
(slice size 1) and is the one axis the start index addresses. So result element `(q, k, d)` is the operand at row
`start[q, k, 0]`, read signed and clamped into `[0, 62]`, and column `d`. -/

section Gather
variable {α : Type}

/-- The gather's dimension numbers, under a short name. -/
abbrev gd : GatherDims S63x128 S512x512x1 S512x512x128 := gather_S63x128_S512x512x1_S512x512x128_2_0_n_n_0_2_1128

/-- The start-indices index `[q, k, 0]`. -/
abbrev siAt (q k : Fin 512) : S512x512x1.Idx := ix3 q k (⟨0, Nat.one_pos⟩ : Fin 1)

/-- THE GATHER READ AT `(q, k, d)`: the operand at the row the start index `idx[q, k, 0]` names, read signed and
    clamped into `[0, 62]`, and at column `d`. On operand axis 0 the start is that clamped row and the offset is zero
    (the axis is collapsed); on operand axis 1 the start is zero (the start index does not address it) and the offset
    is the result's coordinate on its offset axis. -/
theorem gather_row_apply {w : Nat} (x : S63x128.Idx → α) (idx : IVec S512x512x1 w) (q k : Fin 512) (d : Fin 128) :
    Host.gather gd x idx (ix3 q k d)
      = x (ix2 (⟨min (idx (siAt q k)).toInt.toNat 62, by omega⟩ : Fin 63) d) := by
  unfold Host.gather
  congr 1
  funext a
  refine Fin.ext ?_
  match a with
  | ⟨0, _⟩ =>
    show gd.start (ix3 q k d) idx 0 + gd.batchCoord (ix3 q k d) 0 + gd.offCoord (ix3 q k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix3 q k d) ⟨List.idxOf (0 : Fin 2) gd.startIndexMap,
        List.idxOf_lt_length_iff.2 (List.mem_singleton.mpr rfl)⟩ = siAt q k := by
      funext b; refine Fin.ext ?_
      match b with
      | ⟨0, _⟩ => rfl
      | ⟨1, _⟩ => rfl
      | ⟨2, _⟩ => rfl
    rw [hsi]
    rfl
  | ⟨1, _⟩ =>
    show gd.start (ix3 q k d) idx 1 + gd.batchCoord (ix3 q k d) 1 + gd.offCoord (ix3 q k d) 1 = d.val
    have h1 : (1 : Fin 2) ∈ gd.sKept := (GatherDims.mem_sKept _ _).mpr ⟨by decide, List.not_mem_nil⟩
    have hs : gd.start (ix3 q k d) idx 1 = 0 := by
      unfold GatherDims.start
      rw [dif_neg (show (1 : Fin 2) ∉ gd.startIndexMap by decide)]
    rw [hs, GatherDims.batchCoord_eq_zero _ _ _ List.not_mem_nil]
    unfold GatherDims.offCoord
    rw [dif_pos h1]
    simp only [Nat.zero_add]
    rfl

end Gather

/-! ## The integer chain: the bin, as the program computes it -/

/-- A bin, read as a 32-bit word, is not negative as a signed number. -/
theorem cmp_bin_neg (q k : Nat) : IntOp.cmpi .slt (BitVec.ofNat 32 (bin q k)) 0#32 = 0#1 := by
  have hb := bin_lt q k
  have h : ¬ (BitVec.ofNat 32 (bin q k)).slt 0#32 = true := by
    rw [BitVec.slt_iff_toInt_lt, BitVec.toInt_ofNat']
    have hr : ((bin q k : Nat) : Int).bmod (2 ^ 32) = (bin q k : Nat) := by
      apply Int.bmod_eq_of_le <;> omega
    rw [hr]
    have h0 : (0#32 : BitVec 32).toInt = 0 := by decide
    rw [h0]; omega
  unfold IntOp.cmpi
  simp only [h]
  rfl

/-- A bin, read back from its 32-bit word as a signed number, is itself. -/
theorem bin_toNat (q k : Nat) : (BitVec.ofNat 32 (bin q k)).toInt.toNat = bin q k := by
  have hb := bin_lt q k
  rw [BitVec.toInt_ofNat']
  have hr : ((bin q k : Nat) : Int).bmod (2 ^ 32) = (bin q k : Nat) := by
    apply Int.bmod_eq_of_le <;> omega
  rw [hr]; rfl

/-- The clipped, shifted difference of positions at `(q, k)`: the bin's word. -/
theorem v8_at (q k : Fin 512) : val_main_v8 (F := Ideal) (ix2 q k) = BitVec.ofNat 32 (bin q.val k.val) := by
  rw [val_main_v8_apply, val_main_v6_apply, val_main_call0_v4_apply, val_main_call0_v3_apply, val_main_c_0_apply,
    val_main_call0_v2_apply, val_main_call0_v1_apply, val_main_call0_v0_apply, val_main_c_apply,
    val_main_v5_apply, val_main_v3_apply, val_main_v1_apply, val_main_v0_apply,
    val_main_v4_apply, val_main_v2_apply, val_main_v0_apply, val_main_v7_apply, val_main_c_1_apply]
  exact bin_word q.val k.val q.isLt k.isLt

/-- The negative-index normalisation is never taken: the start index at `(q, k)` is the bin's word. -/
theorem v14_at (q k : Fin 512) : val_main_v14 (F := Ideal) (ix2 q k) = BitVec.ofNat 32 (bin q.val k.val) := by
  rw [val_main_v14_apply, val_main_v11_apply, v8_at, val_main_v10_apply, val_main_c_2_apply, cmp_bin_neg, select_zero]

/-! ## The float chain: the result at an index -/

/-- The gathered row at `(q, k, d)`: the weight at `(d, bin q k)`. -/
theorem v16_at (W : FVec Ideal S128x63 .f32) (q k : Fin 512) (d : Fin 128) :
    val_main_v16 (F := Ideal) W (ix3 q k d) = W (ix2 d (⟨bin q.val k.val, bin_lt _ _⟩ : Fin 63)) := by
  unfold val_main_v16
  rw [gather_row_apply (val_main_v9 (F := Ideal) W) (val_main_v15 (F := Ideal)) q k d, val_main_v9_apply]
  congr 1
  funext a
  refine Fin.ext ?_
  match a with
  | ⟨0, _⟩ => rfl
  | ⟨1, _⟩ =>
    show min (val_main_v15 (F := Ideal) (siAt q k)).toInt.toNat 62 = bin q.val k.val
    have h15 : idx_main_v15 (siAt q k) = ix2 q k := by
      funext c; refine Fin.ext ?_
      match c with
      | ⟨0, _⟩ => rfl
      | ⟨1, _⟩ => rfl
    rw [val_main_v15_apply, h15, v14_at, bin_toNat]
    exact Nat.min_eq_left (by have := bin_lt q.val k.val; omega)

/-- The bias broadcast at `(q, k, d)`: the bias at `d`. -/
theorem v18_at (b : FVec Ideal S128 .f32) (q k : Fin 512) (d : Fin 128) :
    val_main_v18 (F := Ideal) b (ix3 q k d) = b (ix1 d) := by
  rw [val_main_v18_apply, val_main_v17_apply]
  congr 1
  funext a
  refine Fin.ext ?_
  match a with
  | ⟨0, _⟩ => rfl

/-- The reference's result at `(n, q, k, d)`. -/
theorem ref_at (x : FVec Ideal S2x512x512x128 .f32) (W : FVec Ideal S128x63 .f32) (b : FVec Ideal S128 .f32)
    (n : Fin 2) (q k : Fin 512) (d : Fin 128) :
    val_main_v22 (F := Ideal) x W b (ix4 n q k d)
      = x (ix4 n q k d) + (W (ix2 d (⟨bin q.val k.val, bin_lt _ _⟩ : Fin 63)) + b (ix1 d)) := by
  have h3 : idx_main_v20 (idx_main_v21 (ix4 n q k d)) = ix3 q k d := by
    funext a; refine Fin.ext ?_
    match a with
    | ⟨0, _⟩ => rfl
    | ⟨1, _⟩ => rfl
    | ⟨2, _⟩ => rfl
  rw [val_main_v22_apply, val_main_v21_apply, val_main_v20_apply, h3, val_main_v19_apply, v16_at, v18_at]
  rfl

/-- The reference program's result is the specification. -/
theorem ref_eq_G (x : FVec Ideal S2x512x512x128 .f32) (W : FVec Ideal S128x63 .f32) (b : FVec Ideal S128 .f32) :
    val_main_v22 (F := Ideal) x W b = G x W b := by
  funext j
  obtain ⟨n, q, k, d, rfl⟩ : ∃ n q k d, j = ix4 n q k d := ⟨j 0, j 1, j 2, j 3, eq_ix4 j⟩
  rw [ref_at]
  rfl

end Cert.ReferenceIdeal.RefValue

end
-- ==== Proof.lean ====
/-
  A relative-position bias added to a [2, 512, 512, 128] input: out[n, q, k, d] = x[n, q, k, d] + (W[d, bin q k] + b[d]),
  where bin q k = clip (q - k, -31, 31) + 31 picks one of 63 columns of the weight W : [128, 63].

  The kernel tiles the (q, k) plane into 16 x 4 tiles of 32 x 128 and, from the tile's coordinates alone, takes one of
  three paths: a tile wholly below the band adds row 0 of the transposed weight, a tile wholly above it adds row 62,
  and a tile that meets the band multiplies a one-hot matrix of the bins with the transposed weight. The reference
  gathers the rows of the transposed weight at the bins. Over the extended reals both are the function above:
  a one-hot sum picks its one row exactly (zero times anything is zero, adding zeros changes nothing), and in a
  clipped tile every pair has the clipped bin. Both programs add bias to the row first and the input last, so no
  rearrangement of sums is needed and the finiteness of the inputs is not used.

  The three frames: the two kernels' by the body's triple in each of its three control cases under the pipeline
  (exactly one case holds at each of the 64 grid points, and each stores the whole output tile), the reference's
  from its run. The ideal pass rewrote nothing, so there is nothing to preserve.
-/
import proofs.«169746_j76501957476438_2_alg».proof.Defs
import proofs.«169746_j76501957476438_2_alg».proof.Proof.Gen.Kernel
import proofs.«169746_j76501957476438_2_alg».proof.Proof.Gen.KernelIdeal
import proofs.«169746_j76501957476438_2_alg».proof.Proof.Gen.ReferenceIdeal
import proofs.«169746_j76501957476438_2_alg».proof.Proof.Gen.Pre_finite_inputs
import proofs.«169746_j76501957476438_2_alg».proof.Proof.RunBits
import proofs.«169746_j76501957476438_2_alg».proof.Proof.KernelValue
import proofs.«169746_j76501957476438_2_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments as launched. -/
theorem frame_kernel : Cert.frame_Kernel := fun m ρ _ => Cert.Kernel.Tile.frame (F := Bits) m ρ

/-- So does the idealized kernel. -/
theorem frame_kernel_ideal : Cert.frame_KernelIdeal := fun m ρ _ => Cert.KernelIdeal.Tile.frame (F := Ideal) m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the idealization. -/
theorem preserves : Cert.preserves_Kernel_KernelIdeal := trivial

/-- Both idealized programs end with the result array at the specification of the (agreeing) arguments. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2]
  exact (Cert.ReferenceIdeal.Read.val_main_v22_eq _ _ _).trans (Cert.ReferenceIdeal.RefValue.ref_eq_G _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
